-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x128 : Shape := ⟨3, ![32, 128, 128]⟩
abbrev S128x128 : Shape := ⟨2, ![128, 128]⟩
abbrev S16384x16384 : Shape := ⟨2, ![16384, 16384]⟩
abbrev S_ : Shape := ⟨0, ![]⟩

class Facts : Prop where
  bcast_S_S32x128x128 : S_.BroadcastsInDim S32x128x128 (![] : Fin 0 → Fin S32x128x128.rank)
  reducesTo_S32x128x128_S_d0_1_2 : S32x128x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S16384x16384 : S_.BroadcastsInDim S16384x16384 (![] : Fin 0 → Fin S16384x16384.rank)
  reducesTo_S16384x16384_S_d0_1 : S16384x16384.ReducesTo [0, 1] S_

variable [Facts]

def fn {F : FTy → Type} [FloatOps F] (main_arg0 : FVec F S32x128x128 .f32) (main_arg1 : FVec F S128x128 .f32) (main_arg2 : FVec F S16384x16384 .f32) : IVec S_ 1 :=
  let main_v0 : FVec F S32x128x128 .f32 := Host.absf main_arg0
  let main_cst : FVec F S_ .f32 := constant S_ .f32 0x7F800000#32
  let main_v1 : FVec F S32x128x128 .f32 := broadcastInDim S32x128x128 ![] bcast_S_S32x128x128 main_cst
  let main_v2 : IVec S32x128x128 1 := cmpf .olt main_v0 main_v1
  let main_c : IVec S_ 1 := constantI S_ 1 1#1
  let main_v3 : IVec S_ 1 := (fun x v => Host.reduce IntOp.andi x v reducesTo_S32x128x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S16384x16384 .f32 := Host.absf main_arg2
  let main_cst_2 : FVec F S_ .f32 := constant S_ .f32 0x7F800000#32
  let main_v10 : FVec F S16384x16384 .f32 := broadcastInDim S16384x16384 ![] bcast_S_S16384x16384 main_cst_2
  let main_v11 : IVec S16384x16384 1 := cmpf .olt main_v9 main_v10
  let main_c_3 : IVec S_ 1 := constantI S_ 1 1#1
  let main_v12 : IVec S_ 1 := (fun x v => Host.reduce IntOp.andi x v reducesTo_S16384x16384_S_d0_1 h_S_) main_v11 main_c_3
  let main_v13 : IVec S_ 1 := andi main_v8 main_v12
  main_v13
-- ==== Kernel.lean ====
abbrev S32x128x128 : Shape := ⟨3, ![32, 128, 128]⟩
abbrev S128x128 : Shape := ⟨2, ![128, 128]⟩
abbrev S16384x16384 : Shape := ⟨2, ![16384, 16384]⟩
abbrev S_ : Shape := ⟨0, ![]⟩
abbrev S1x16384 : Shape := ⟨2, ![1, 16384]⟩
abbrev S32x16384 : Shape := ⟨2, ![32, 16384]⟩
abbrev S1024x2048 : Shape := ⟨2, ![1024, 2048]⟩
abbrev S32x1024 : Shape := ⟨2, ![32, 1024]⟩
abbrev S32x2048 : Shape := ⟨2, ![32, 2048]⟩

abbrev nBuf : Space → Nat
  | .hbm => 15
  | .vmem => 6
  | .smem => 0
  | _ => 0

abbrev bufTy : (tb : Table) → Fin (tcTables nBuf tb) → BufTy
  | .hbm, ⟨0, _⟩ => ⟨S32x128x128, .f32⟩
  | .hbm, ⟨1, _⟩ => ⟨S128x128, .f32⟩
  | .hbm, ⟨2, _⟩ => ⟨S16384x16384, .f32⟩
  | .hbm, ⟨3, _⟩ => ⟨S_, .f32⟩
  | .hbm, ⟨4, _⟩ => ⟨S128x128, .f32⟩
  | .hbm, ⟨5, _⟩ => ⟨S128x128, .f32⟩
  | .hbm, ⟨6, _⟩ => ⟨S_, .f32⟩
  | .hbm, ⟨7, _⟩ => ⟨S128x128, .f32⟩
  | .hbm, ⟨8, _⟩ => ⟨S128x128, .f32⟩
  | .hbm, ⟨9, _⟩ => ⟨S1x16384, .f32⟩
  | .hbm, ⟨10, _⟩ => ⟨S32x16384, .f32⟩
  | .hbm, ⟨11, _⟩ => ⟨S32x16384, .f32⟩
  | .hbm, ⟨12, _⟩ => ⟨S32x16384, .f32⟩
  | .hbm, ⟨13, _⟩ => ⟨S32x16384, .f32⟩
  | .hbm, ⟨14, _⟩ => ⟨S32x128x128, .f32⟩
  | .local _ .vmem, ⟨0, _⟩ => ⟨S1024x2048, .f32⟩
  | .local _ .vmem, ⟨1, _⟩ => ⟨S1024x2048, .f32⟩
  | .local _ .vmem, ⟨2, _⟩ => ⟨S32x16384, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | _, _ => ⟨S32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c2048_i32 : BitVec 32 := 2048#32
  let v4 : BitVec 32 := Scalar.muli arg1 c2048_i32
  v4
def k0_off1 (i : grid0.Coords) : Fin 2 → Nat :=
  let c0 : Index := 0#32
  let arg1 : BitVec 32 := BitVec.ofNat 32 (i 1).val
  let c2048_i32 : BitVec 32 := 2048#32
  let v4 : BitVec 32 := Scalar.muli arg1 c2048_i32
  let v5 : BitVec 32 := v4
  let v6 : Index := Scalar.indexCast v5
  ![0, v6.toNat]
def k0_cond3 (i : grid0.Coords) : BitVec 1 :=
  let arg1 : BitVec 32 := BitVec.ofNat 32 (i 1).val
  let c7_i32 : BitVec 32 := 7#32
  let v0 : BitVec 1 := Scalar.cmpi .eq arg1 c7_i32
  let v16 : BitVec 32 := Scalar.extui v0
  let c0_i32_4 : BitVec 32 := 0#32
  let v17 : BitVec 1 := Scalar.cmpi .ne v16 c0_i32_4
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S128x128 : S_.BroadcastsInDim S128x128 (![] : Fin 0 → Fin S128x128.rank)
  shapeCasts_S128x128_S1x16384 : S128x128.ShapeCasts S1x16384
  shapeCasts_S32x128x128_S32x16384 : S32x128x128.ShapeCasts S32x16384
  bcast_S1x16384_S32x16384_0_1 : S1x16384.BroadcastsInDim S32x16384 (![0, 1] : Fin 2 → Fin S32x16384.rank)
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  h_S32x2048 : 0 < S32x2048.numel
  shapeCasts_S32x2048_S32x2048 : S32x2048.ShapeCasts S32x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S32x16384_S32x128x128 : S32x16384.ShapeCasts S32x128x128
  dot_S32x2048_S1024x2048_S32x1024_1_1_0_0_n_n_wf : DotDims.WF S32x2048 S1024x2048 S32x1024 [1] [1] [0] [0] [] []
  hrank0 : 0 < grid0.rank
  k0_mult1_dvd : ∀ i : grid0.Coords, 128 ∣ (k0_mult1 i).toNat
  k0_off1_inb : ∀ i : grid0.Coords, ∀ a, (k0_off1 i) a + S32x2048.size a ≤ S32x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x16384.size a ≤ S32x16384.size a
  hwx0_1 : ∀ i : grid0.Coords, EltTy.bits .f32 = 32 ∨ (Rect.block (s := S32x16384) S32x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S32x16384.size a
  hwx0_2 : ∀ i : grid0.Coords, EltTy.bits .f32 = 32 ∨ (Rect.block (s := S32x16384) S32x1024.size (cc0_transform_2 i) (hinb0_2 i)).WholeWords (EltTy.packing .f32)

variable [Facts₀]

def dot_S32x2048_S1024x2048_S32x1024_1_1_0_0_n_n : DotDims S32x2048 S1024x2048 S32x1024 where
  lhsContracting := [1]
  rhsContracting := [1]
  lhsNonContracting := [0]
  rhsNonContracting := [0]
  lhsBatch := []
  rhsBatch := []
  wf := dot_S32x2048_S1024x2048_S32x1024_1_1_0_0_n_n_wf

abbrev win0_0 : Pipeline.Window sig grid0 :=
  Pipeline.Window.ofSpec (Memref.whole main_arg2) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S32x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S32x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S32x128x128 : Shape := ⟨3, ![32, 128, 128]⟩
abbrev S128x128 : Shape := ⟨2, ![128, 128]⟩
abbrev S16384x16384 : Shape := ⟨2, ![16384, 16384]⟩
abbrev S_ : Shape := ⟨0, ![]⟩
abbrev S1x128x128 : Shape := ⟨3, ![1, 128, 128]⟩
abbrev S32x16384 : Shape := ⟨2, ![32, 16384]⟩

abbrev nBuf : Space → Nat
  | .hbm => 16
  | .vmem => 0
  | .smem => 0
  | _ => 0

abbrev bufTy : (tb : Table) → Fin (tcTables nBuf tb) → BufTy
  | .hbm, ⟨0, _⟩ => ⟨S32x128x128, .f32⟩
  | .hbm, ⟨1, _⟩ => ⟨S128x128, .f32⟩
  | .hbm, ⟨2, _⟩ => ⟨S16384x16384, .f32⟩
  | .hbm, ⟨3, _⟩ => ⟨S_, .f32⟩
  | .hbm, ⟨4, _⟩ => ⟨S128x128, .f32⟩
  | .hbm, ⟨5, _⟩ => ⟨S128x128, .f32⟩
  | .hbm, ⟨6, _⟩ => ⟨S_, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S1x128x128, .f32⟩
  | .hbm, ⟨11, _⟩ => ⟨S32x128x128, .f32⟩
  | .hbm, ⟨12, _⟩ => ⟨S32x128x128, .f32⟩
  | .hbm, ⟨13, _⟩ => ⟨S32x16384, .f32⟩
  | .hbm, ⟨14, _⟩ => ⟨S32x16384, .f32⟩
  | .hbm, ⟨15, _⟩ => ⟨S32x128x128, .f32⟩
  | _, _ => ⟨S32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S_S128x128 : S_.BroadcastsInDim S128x128 (![] : Fin 0 → Fin S128x128.rank)
  bcast_S128x128_S1x128x128_1_2 : S128x128.BroadcastsInDim S1x128x128 (![1, 2] : Fin 2 → Fin S1x128x128.rank)
  bcast_S1x128x128_S32x128x128_0_1_2 : S1x128x128.BroadcastsInDim S32x128x128 (![0, 1, 2] : Fin 3 → Fin S32x128x128.rank)
  shapeCasts_S32x128x128_S32x16384 : S32x128x128.ShapeCasts S32x16384
  shapeCasts_S32x16384_S32x128x128 : S32x16384.ShapeCasts S32x128x128
  dot_S32x16384_S16384x16384_S32x16384_1_1_0_0_n_n_wf : DotDims.WF S32x16384 S16384x16384 S32x16384 [1] [1] [0] [0] [] []

variable [Facts₀]

def dot_S32x16384_S16384x16384_S32x16384_1_1_0_0_n_n : DotDims S32x16384 S16384x16384 S32x16384 where
  lhsContracting := [1]
  rhsContracting := [1]
  lhsNonContracting := [0]
  rhsNonContracting := [0]
  lhsBatch := []
  rhsBatch := []
  wf := dot_S32x16384_S16384x16384_S32x16384_1_1_0_0_n_n_wf

class Facts : Prop extends Facts₀ where

variable [Facts]
-- ==== Proof.KBCases.lean ====
/-
  The body of the mat-vec kernel branches on the reduction coordinate k = t mod 8 of grid point t (the grid is
  16 row blocks by 8 reduction steps, the reduction step the fast axis). Three cases are met:
    first  (k = 0):      the accumulator is zeroed, then the step's partial product is added into it;
    middle (1 ≤ k ≤ 6):  the partial product is added into the accumulator;
    last   (k = 7):      accumulator + partial product is stored into the output block; the accumulator is only read.
  This module states the three branch conditions as the body computes them from the grid coordinates, decides each over
  the 128 points as a condition on t mod 8, records where the output window is idle (k ≠ 7: nothing stored, nothing
  written back) and live (k = 7), names the staging and accumulator memrefs the body is called with, and restates the
  region's invariant with the accumulator as an owned whole memref.
-/
import proofs.«111642_j22608707846341_2_alg».proof.Proof.Gen.Kernel.Frame
import proofs.«111642_j22608707846341_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions -/

/-- The reset's condition, `k = 0`, as the body computes it. -/
abbrev condFirst (i : grid0.Coords) : Prop :=
  (Scalar.cmpi .ne (Scalar.extui (Scalar.cmpi .eq (BitVec.ofNat 32 (i 1).val) 0#32)) 0#32) = 1#1
/-- The accumulate-in-place condition, `¬ (k = 7)`, as the body computes it. -/
abbrev condAcc (i : grid0.Coords) : Prop :=
  (Scalar.cmpi .ne (Scalar.extui (Scalar.xori (Scalar.cmpi .eq (BitVec.ofNat 32 (i 1).val) 7#32) 1#1)) 0#32) = 1#1
/-- The final store's condition, `k = 7`. -/
abbrev condLast (i : grid0.Coords) : Prop := k0_cond3 i = 1#1

theorem hcondFirst : ∀ t : Fin cfg0.N, condFirst (grid0.coords t) ↔ t.val % 8 = 0 :=
  (by decide +kernel : ∀ t : Fin grid0.N, condFirst (grid0.coords t) ↔ t.val % 8 = 0)
theorem hcondAcc : ∀ t : Fin cfg0.N, condAcc (grid0.coords t) ↔ ¬ t.val % 8 = 7 :=
  (by decide +kernel : ∀ t : Fin grid0.N, condAcc (grid0.coords t) ↔ ¬ t.val % 8 = 7)
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
/-- Away from the last reduction step nothing is stored into the output block, -/
theorem idle2 : ∀ t : Fin cfg0.N, ¬ t.val % 8 = 7 → cfg0.idle 2 (grid0.coords t) = true := by decide +kernel
/-- and it is not written back there. -/
theorem noFlush2 : ∀ t : Fin cfg0.N, ¬ t.val % 8 = 7 → (cfg0.win 2).flush t = false := by decide +kernel
/-- At the last reduction step the output block is stored. -/
theorem live2 : ∀ t : Fin cfg0.N, t.val % 8 = 7 → cfg0.idle 2 (grid0.coords t) = false := by decide +kernel

/-! ## The memrefs the body is called with -/

abbrev msA (t : Fin cfg0.N) : Memref sig .tc .vmem S1024x2048 .f32 := win0_0.stage (cfg0.slots t 0)
abbrev hsA (t : Fin cfg0.N) : (msA t).IsWhole := hstage0_0 ((cfg0.slots t 0).cast nbuf0_0)
abbrev msX (t : Fin cfg0.N) : Memref sig .tc .vmem S32x16384 .f32 := win0_1.stage (cfg0.slots t 1)
abbrev hsX (t : Fin cfg0.N) : (msX t).IsWhole := hstage0_1 ((cfg0.slots t 1).cast nbuf0_1)
abbrev msO (t : Fin cfg0.N) : Memref sig .tc .vmem S32x1024 .f32 := win0_2.stage (cfg0.slots t 2)
abbrev hsO (t : Fin cfg0.N) : (msO t).IsWhole := hstage0_2 ((cfg0.slots t 2).cast nbuf0_2)
/-- The accumulator: a whole scoped buffer of the kernel's own, carried from point to point. -/
abbrev accM : Memref sig .tc .vmem S32x1024 .f32 := Memref.whole cc0_scratch0
abbrev accV : View sig .tc .vmem S32x1024 .f32 := accM.view
/-- One staging buffer of the output window, through which its contents are stated. -/
abbrev outV : View sig .tc .vmem S32x1024 .f32 := (Memref.whole cc0_stg2_0 : Memref sig .tc .vmem S32x1024 .f32).view

/-- The region's invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Body

end
-- ==== Proof.KBRunFirst.lean ====
/-
  The body at a point of the first reduction step (k = 0). Handed the adjacency tile, the resident modulated-spikes
  array, the output block's buffer (idle here: handed back untouched) and the accumulator at anything, it runs to the
  end leaving the inputs as they were and the accumulator with its stores written: the zero block, then the zero block
  read back plus the step's partial product. The stores are found by running the body; they are the witness.
-/
import proofs.«111642_j22608707846341_2_alg».proof.Proof.KBCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords)
    (arg2 : Memref sig .tc .vmem S1024x2048 .f32) (harg2 : arg2.IsWhole)
    (arg3 : Memref sig .tc .vmem S32x16384 .f32) (harg3 : arg3.IsWhole)
    (arg4 : Memref sig .tc .vmem S32x1024 .f32) (harg4 : arg4.IsWhole)
    (arg5 : Memref sig .tc .vmem S32x1024 .f32) (harg5 : arg5.IsWhole)
    (hc0 : condFirst i) (hc1 : condAcc i) (hc2 : ¬condLast i)
    (x0 : Vec F S1024x2048 .f32) (x1 : Vec F S32x16384 .f32) :
    { LS : List (View.Piece (Elt F) S32x1024 .f32) //
      ∀ (xi : Vec F S32x1024 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc0__mv_kernel i arg2 harg2 arg3 harg3 arg4 harg4 arg5 harg5) K } := by
  refine ⟨?_, fun xi E K => ?run⟩
  case run =>
    simp only [cc0__mv_kernel_eq_skeleton]; unfold cc0__mv_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Body

end
-- ==== Proof.KBRunMiddle.lean ====
/-
  The body at a point of a middle reduction step (1 ≤ k ≤ 6). Handed the inputs, the output block's buffer (idle:
  handed back untouched) and the accumulator at what the step before left, it leaves the accumulator with one store
  written: its contents plus the step's partial product.
-/
import proofs.«111642_j22608707846341_2_alg».proof.Proof.KBRunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMiddle (c : Dev nD) (i : grid0.Coords)
    (arg2 : Memref sig .tc .vmem S1024x2048 .f32) (harg2 : arg2.IsWhole)
    (arg3 : Memref sig .tc .vmem S32x16384 .f32) (harg3 : arg3.IsWhole)
    (arg4 : Memref sig .tc .vmem S32x1024 .f32) (harg4 : arg4.IsWhole)
    (arg5 : Memref sig .tc .vmem S32x1024 .f32) (harg5 : arg5.IsWhole)
    (hc0 : ¬condFirst i) (hc1 : condAcc i) (hc2 : ¬condLast i)
    (x0 : Vec F S1024x2048 .f32) (x1 : Vec F S32x16384 .f32) (xs : Vec F S32x1024 .f32) :
    { LS : List (View.Piece (Elt F) S32x1024 .f32) //
      ∀ (xi : Vec F S32x1024 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc0__mv_kernel i arg2 harg2 arg3 harg3 arg4 harg4 arg5 harg5) K } := by
  refine ⟨?_, fun xi E K => ?run⟩
  case run =>
    simp only [cc0__mv_kernel_eq_skeleton]; unfold cc0__mv_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Body

end
-- ==== Proof.KBRunLast.lean ====
/-
  The body at a point of the last reduction step (k = 7). Handed the inputs, the output block's buffer at anything and
  the accumulator at what the step before left, it leaves the output block's buffer with one store written —
  the accumulator plus the step's partial product — and the accumulator as it was (it is only read).
-/
import proofs.«111642_j22608707846341_2_alg».proof.Proof.KBRunMiddle

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid0.Coords)
    (arg2 : Memref sig .tc .vmem S1024x2048 .f32) (harg2 : arg2.IsWhole)
    (arg3 : Memref sig .tc .vmem S32x16384 .f32) (harg3 : arg3.IsWhole)
    (arg4 : Memref sig .tc .vmem S32x1024 .f32) (harg4 : arg4.IsWhole)
    (arg5 : Memref sig .tc .vmem S32x1024 .f32) (harg5 : arg5.IsWhole)
    (hc0 : ¬condFirst i) (hc1 : ¬condAcc i) (hc2 : condLast i)
    (x0 : Vec F S1024x2048 .f32) (x1 : Vec F S32x16384 .f32) (xs : Vec F S32x1024 .f32) :
    { LO : List (View.Piece (Elt F) S32x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ owns (c : Thread nD τ) arg5 fullShare xs) -∗ K ⟨⟩))
          ⊢ wp frame (wpE (defs₀ (F := F)) Variants.none c none) E (cc0__mv_kernel i arg2 harg2 arg3 harg3 arg4 harg4 arg5 harg5) K } := by
  refine ⟨?_, fun E K => ?run⟩
  case run =>
    simp only [cc0__mv_kernel_eq_skeleton]; unfold cc0__mv_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; isplitr; · ipureintro; exact harg5.read_unread _
    iexact HS

end Cert.Kernel.Body

end
-- ==== Proof.KBFrame.lean ====
/-
  The frame of the mat-vec kernel: the proof data of its one pipeline and the body's obligation at every grid point.
  What the accumulator holds after point t is defined by recursion on t — at k = t mod 8 = 0 what the first case
  leaves, at 1 ≤ k ≤ 6 what the middle case leaves over the step before, at k = 7 what the step before left (the last
  case only reads it) — and the output block's buffer holds, after a point with k = 7, what the last case stores over
  the accumulator of the step before. The region's invariant carries the accumulator at that value from point to point:
  anything before the first point, forgotten after the last. Each grid point is in exactly one case by t mod 8, and there
  the case's run applies. The launch is the library's frame run with a tracking invariant and host lines after the region.
-/
import proofs.«111642_j22608707846341_2_alg».proof.Proof.KBRunLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem ne7_of_0 {k : ℕ} (h : k % 8 = 0) : ¬ k % 8 = 7 := by omega

/-! ## What each case leaves -/

section pieces
variable (c : Dev nD) (i : grid0.Coords)
    (arg2 : Memref sig .tc .vmem S1024x2048 .f32) (harg2 : arg2.IsWhole)
    (arg3 : Memref sig .tc .vmem S32x16384 .f32) (harg3 : arg3.IsWhole)
    (arg4 : Memref sig .tc .vmem S32x1024 .f32) (harg4 : arg4.IsWhole)
    (arg5 : Memref sig .tc .vmem S32x1024 .f32) (harg5 : arg5.IsWhole)
    (x0 : Vec F S1024x2048 .f32) (x1 : Vec F S32x16384 .f32) (xs : Vec F S32x1024 .f32)

/-- The first case's stores into the accumulator cover it. -/
theorem coverFirst (hc0 : condFirst i) (hc1 : condAcc i) (hc2 : ¬condLast i) (y : S32x1024.Idx) :
    ∃ pc ∈ (runFirst c i arg2 harg2 arg3 harg3 arg4 harg4 arg5 harg5 hc0 hc1 hc2 x0 x1).1, y ∈ pc.1.set :=
  View.cover_of_tiledL (runFirst c i arg2 harg2 arg3 harg3 arg4 harg4 arg5 harg5 hc0 hc1 hc2 x0 x1).1 S32x1024.size (by sl_kernel_rfl) y
/-- What the first case leaves in the accumulator. -/
def accFirst (hc0 : condFirst i) (hc1 : condAcc i) (hc2 : ¬condLast i) : Vec F S32x1024 .f32 :=
  accV.read (Elt F) (accV.writes (Elt F) accV.junk (runFirst c i arg2 harg2 arg3 harg3 arg4 harg4 arg5 harg5 hc0 hc1 hc2 x0 x1).1)

/-- The middle case's store into the accumulator covers it. -/
theorem coverMiddle (hc0 : ¬condFirst i) (hc1 : condAcc i) (hc2 : ¬condLast i) (y : S32x1024.Idx) :
    ∃ pc ∈ (runMiddle c i arg2 harg2 arg3 harg3 arg4 harg4 arg5 harg5 hc0 hc1 hc2 x0 x1 xs).1, y ∈ pc.1.set :=
  View.cover_of_tiledL (runMiddle c i arg2 harg2 arg3 harg3 arg4 harg4 arg5 harg5 hc0 hc1 hc2 x0 x1 xs).1 S32x1024.size (by sl_kernel_rfl) y
/-- What the middle case leaves in the accumulator. -/
def accMiddle (hc0 : ¬condFirst i) (hc1 : condAcc i) (hc2 : ¬condLast i) : Vec F S32x1024 .f32 :=
  accV.read (Elt F) (accV.writes (Elt F) accV.junk (runMiddle c i arg2 harg2 arg3 harg3 arg4 harg4 arg5 harg5 hc0 hc1 hc2 x0 x1 xs).1)

/-- The last case's store into the output block's buffer covers it. -/
theorem coverLast (hc0 : ¬condFirst i) (hc1 : ¬condAcc i) (hc2 : condLast i) (y : S32x1024.Idx) :
    ∃ pc ∈ (runLast c i arg2 harg2 arg3 harg3 arg4 harg4 arg5 harg5 hc0 hc1 hc2 x0 x1 xs).1, y ∈ pc.1.set :=
  View.cover_of_tiledL (runLast c i arg2 harg2 arg3 harg3 arg4 harg4 arg5 harg5 hc0 hc1 hc2 x0 x1 xs).1 S32x1024.size (by sl_kernel_rfl) y
/-- What the last case leaves in the output block's buffer. -/
def outLast (hc0 : ¬condFirst i) (hc1 : ¬condAcc i) (hc2 : condLast i) : Vec F S32x1024 .f32 :=
  outV.read (Elt F) (outV.writes (Elt F) outV.junk (runLast c i arg2 harg2 arg3 harg3 arg4 harg4 arg5 harg5 hc0 hc1 hc2 x0 x1 xs).1)

end pieces

/-- The output block's buffer where nothing is stored into it: a placeholder nothing consults (the window is idle and
    not written back there). -/
def idleOut : Vec F S32x1024 .f32 := outV.read (Elt F) outV.junk

/-! ## What the output block's buffer and the accumulator hold after each point -/

/-- After position `n`: (the output block's buffer, the accumulator). -/
def outsAt (c : Dev nD) : (n : ℕ) → n < cfg0.N → Vec F S32x1024 .f32 × Vec F S32x1024 .f32
  | 0, hn => (idleOut, accFirst c (grid0.coords ⟨0, hn⟩) (msA ⟨0, hn⟩) (hsA ⟨0, hn⟩) (msX ⟨0, hn⟩) (hsX ⟨0, hn⟩) (msO ⟨0, hn⟩) (hsO ⟨0, hn⟩) accM (Memref.isWhole_whole _) (iblk m c 0 ⟨0, hn⟩) (iblk m c 1 ⟨0, hn⟩) ((hcondFirst ⟨0, hn⟩).mpr (Nat.zero_mod 8)) ((hcondAcc ⟨0, hn⟩).mpr (ne7_of_0 (Nat.zero_mod 8))) (fun h => ne7_of_0 (Nat.zero_mod 8) ((hcondLast ⟨0, hn⟩).mp h)))
  | n + 1, hn =>
    if h0 : (n + 1) % 8 = 0 then
      (idleOut, accFirst c (grid0.coords ⟨n + 1, hn⟩) (msA ⟨n + 1, hn⟩) (hsA ⟨n + 1, hn⟩) (msX ⟨n + 1, hn⟩) (hsX ⟨n + 1, hn⟩) (msO ⟨n + 1, hn⟩) (hsO ⟨n + 1, hn⟩) accM (Memref.isWhole_whole _) (iblk m c 0 ⟨n + 1, hn⟩) (iblk m c 1 ⟨n + 1, hn⟩) ((hcondFirst ⟨n + 1, hn⟩).mpr h0) ((hcondAcc ⟨n + 1, hn⟩).mpr (ne7_of_0 h0)) (fun h => ne7_of_0 h0 ((hcondLast ⟨n + 1, hn⟩).mp h)))
    else if h7 : (n + 1) % 8 = 7 then
      (outLast c (grid0.coords ⟨n + 1, hn⟩) (msA ⟨n + 1, hn⟩) (hsA ⟨n + 1, hn⟩) (msX ⟨n + 1, hn⟩) (hsX ⟨n + 1, hn⟩) (msO ⟨n + 1, hn⟩) (hsO ⟨n + 1, hn⟩) accM (Memref.isWhole_whole _) (iblk m c 0 ⟨n + 1, hn⟩) (iblk m c 1 ⟨n + 1, hn⟩) (outsAt c n (Nat.lt_of_succ_lt hn)).2 (fun h => h0 ((hcondFirst ⟨n + 1, hn⟩).mp h)) (fun h => ((hcondAcc ⟨n + 1, hn⟩).mp h) h7) ((hcondLast ⟨n + 1, hn⟩).mpr h7), (outsAt c n (Nat.lt_of_succ_lt hn)).2)
    else
      (idleOut, accMiddle c (grid0.coords ⟨n + 1, hn⟩) (msA ⟨n + 1, hn⟩) (hsA ⟨n + 1, hn⟩) (msX ⟨n + 1, hn⟩) (hsX ⟨n + 1, hn⟩) (msO ⟨n + 1, hn⟩) (hsO ⟨n + 1, hn⟩) accM (Memref.isWhole_whole _) (iblk m c 0 ⟨n + 1, hn⟩) (iblk m c 1 ⟨n + 1, hn⟩) (outsAt c n (Nat.lt_of_succ_lt hn)).2 (fun h => h0 ((hcondFirst ⟨n + 1, hn⟩).mp h)) ((hcondAcc ⟨n + 1, hn⟩).mpr h7) (fun h => h7 ((hcondLast ⟨n + 1, hn⟩).mp h)))

theorem outsAt_first (c : Dev nD) (t : Fin cfg0.N) (h0 : t.val % 8 = 0) :
    outsAt m c t.val t.isLt = (idleOut, accFirst c (grid0.coords t) (msA t) (hsA t) (msX t) (hsX t) (msO t) (hsO t) accM (Memref.isWhole_whole _) (iblk m c 0 t) (iblk m c 1 t) ((hcondFirst t).mpr h0) ((hcondAcc t).mpr (ne7_of_0 h0)) (fun h => ne7_of_0 h0 ((hcondLast t).mp h))) := by
  obtain ⟨n, hn⟩ := t
  cases n with
  | zero => exact rfl
  | succ n => exact (dif_pos h0).trans rfl

theorem outsAt_middle (c : Dev nD) (t : Fin cfg0.N) (h0 : ¬t.val % 8 = 0) (h7 : ¬t.val % 8 = 7) :
    outsAt m c t.val t.isLt = (idleOut, accMiddle c (grid0.coords t) (msA t) (hsA t) (msX t) (hsX t) (msO t) (hsO t) accM (Memref.isWhole_whole _) (iblk m c 0 t) (iblk m c 1 t) (outsAt m c (t.val - 1) (Nat.lt_of_le_of_lt (Nat.sub_le _ _) t.isLt)).2 (fun h => h0 ((hcondFirst t).mp h)) ((hcondAcc t).mpr h7) (fun h => h7 ((hcondLast t).mp h))) := by
  obtain ⟨n, hn⟩ := t
  cases n with
  | zero => exact (by exfalso; (try dsimp only at h0); exact absurd (Nat.zero_mod _) h0)
  | succ n => exact (dif_neg h0).trans ((dif_neg h7).trans rfl)

theorem outsAt_last (c : Dev nD) (t : Fin cfg0.N) (h0 : ¬t.val % 8 = 0) (h7 : t.val % 8 = 7) :
    outsAt m c t.val t.isLt = (outLast c (grid0.coords t) (msA t) (hsA t) (msX t) (hsX t) (msO t) (hsO t) accM (Memref.isWhole_whole _) (iblk m c 0 t) (iblk m c 1 t) (outsAt m c (t.val - 1) (Nat.lt_of_le_of_lt (Nat.sub_le _ _) t.isLt)).2 (fun h => h0 ((hcondFirst t).mp h)) (fun h => ((hcondAcc t).mp h) h7) ((hcondLast t).mpr h7), (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The region's invariant, point by point -/

/-- Before position `n`: before the first point the accumulator holds anything; afterwards what the point before left. -/
def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The pipeline's proof data -/

/-- The arrays as the region finds them; after the body each input's buffer at its block and the output block's buffer at
    `outsAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (msA t) fullShare ((dats m 0 c).before 0 t d))
    ∗ (∃ d, owns (c : Thread nD τ) (msX t) fullShare ((dats m 0 c).before 1 t d))
    ∗ (∃ d, owns (c : Thread nD τ) (msO t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (msA t) fullShare (iblk m c 0 t) := by
  unfold Dat.leavesExact; rw [live0 t, after0]
theorem leaves1 (c : Dev nD) (t : Fin cfg0.N) :
    (dats m 0 c).leavesExact 1 t = owns (c : Thread nD τ) (msX t) fullShare (iblk m c 1 t) := by
  unfold Dat.leavesExact; rw [live1 t, after1]
theorem leaves2 (c : Dev nD) (t : Fin cfg0.N) (h7 : t.val % 8 = 7) :
    (dats m 0 c).leavesExact 2 t = owns (c : Thread nD τ) (msO t) fullShare ((outsAt m c t.val t.isLt).1) := by
  unfold Dat.leavesExact; rw [live2 t h7, after2]

set_option maxHeartbeats 4800000 in
/-- The body at any point: the inputs' buffers hold their blocks; `t mod 8` says which case the point is in; the invariant
    hands the body the accumulator at what the point before left (at anything before the first point) and takes it back at
    this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1]
  have hN : t.val < 128 := lt_of_lt_of_eq t.isLt (show cfg0.N = 128 from N_0)
  by_cases h0 : t.val % 8 = 0
  · have h7 : ¬t.val % 8 = 7 := ne7_of_0 h0
    rw [Dat.leavesExact_idle (dats m 0 c) 2 t (idle2 t h7) (noFlush2 t h7)]
    rw [outsAt_first m c t h0]
    unfold accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩⟩
      iapply ((runFirst c (grid0.coords t) _ _ _ _ _ _ _ _ ((hcondFirst t).mpr h0) ((hcondAcc t).mpr (ne7_of_0 h0)) (fun h => ne7_of_0 h0 ((hcondLast t).mp h)) (iblk m c 0 t) (iblk m c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS, Hg⟩, Ho, ⟨%d0, H0⟩, ⟨%d1, H1⟩, ⟨%d2, H2⟩⟩
      iapply ((runFirst c (grid0.coords t) _ _ _ _ _ _ _ _ ((hcondFirst t).mpr h0) ((hcondAcc t).mpr (ne7_of_0 h0)) (fun h => ne7_of_0 h0 ((hcondLast t).mp h)) (iblk m c 0 t) (iblk m c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h7 : t.val % 8 = 7
    · rw [leaves2 m c t h7]
      rw [outsAt_last m c t h0 h7]
      unfold outLast; (try dsimp only)
      rw [PhiS_castSucc m c t, PhiS_pos m c _ _ hz]
      iintro ⟨⟨HS, Hg⟩, Ho, ⟨%d0, H0⟩, ⟨%d1, H1⟩, ⟨%d2, H2⟩⟩
      iapply ((runLast c (grid0.coords t) _ _ _ _ _ _ _ _ (fun h => h0 ((hcondFirst t).mp h)) (fun h => ((hcondAcc t).mp h) h7) ((hcondLast t).mpr h7) (iblk m c 0 t) (iblk m c 1 t) _).2 Set.univ _)
      isplitl [H0]; · iexact H0
      isplitl [H1]; · iexact H1
      isplitl [H2]; · iexists _; iexact H2
      isplitl [HS]; · iexact HS
      iintro ⟨H0, H1, ⟨%e2, H2⟩, HS⟩
      isplitl [HS Hg]
      · isplitl [HS]; · iexact HS
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast c _ _ _ _ _ _ _ _ _ _ _ _ _ _ _)
    · rw [Dat.leavesExact_idle (dats m 0 c) 2 t (idle2 t h7) (noFlush2 t h7)]
      rw [outsAt_middle m c t h0 h7]
      unfold accMiddle; (try dsimp only)
      rw [PhiS_castSucc m c t, PhiS_pos m c _ _ hz]
      iintro ⟨⟨HS, Hg⟩, Ho, ⟨%d0, H0⟩, ⟨%d1, H1⟩, ⟨%d2, H2⟩⟩
      iapply ((runMiddle c (grid0.coords t) _ _ _ _ _ _ _ _ (fun h => h0 ((hcondFirst t).mp h)) ((hcondAcc t).mpr h7) (fun h => h7 ((hcondLast t).mp h)) (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverMiddle c _ _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KICases.lean ====
/-
  The body of the mat-vec kernel branches on the reduction coordinate k = t mod 8 of grid point t (the grid is
  16 row blocks by 8 reduction steps, the reduction step the fast axis). Three cases are met:
    first  (k = 0):      the accumulator is zeroed, then the step's partial product is added into it;
    middle (1 ≤ k ≤ 6):  the partial product is added into the accumulator;
    last   (k = 7):      accumulator + partial product is stored into the output block; the accumulator is only read.
  This module states the three branch conditions as the body computes them from the grid coordinates, decides each over
  the 128 points as a condition on t mod 8, records where the output window is idle (k ≠ 7: nothing stored, nothing
  written back) and live (k = 7), names the staging and accumulator memrefs the body is called with, and restates the
  region's invariant with the accumulator as an owned whole memref.
-/
import proofs.«111642_j22608707846341_2_alg».proof.Proof.Gen.KernelIdeal.Frame
import proofs.«111642_j22608707846341_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions -/

/-- The reset's condition, `k = 0`, as the body computes it. -/
abbrev condFirst (i : grid0.Coords) : Prop :=
  (Scalar.cmpi .ne (Scalar.extui (Scalar.cmpi .eq (BitVec.ofNat 32 (i 1).val) 0#32)) 0#32) = 1#1
/-- The accumulate-in-place condition, `¬ (k = 7)`, as the body computes it. -/
abbrev condAcc (i : grid0.Coords) : Prop :=
  (Scalar.cmpi .ne (Scalar.extui (Scalar.xori (Scalar.cmpi .eq (BitVec.ofNat 32 (i 1).val) 7#32) 1#1)) 0#32) = 1#1
/-- The final store's condition, `k = 7`. -/
abbrev condLast (i : grid0.Coords) : Prop := k0_cond3 i = 1#1

theorem hcondFirst : ∀ t : Fin cfg0.N, condFirst (grid0.coords t) ↔ t.val % 8 = 0 :=
  (by decide +kernel : ∀ t : Fin grid0.N, condFirst (grid0.coords t) ↔ t.val % 8 = 0)
theorem hcondAcc : ∀ t : Fin cfg0.N, condAcc (grid0.coords t) ↔ ¬ t.val % 8 = 7 :=
  (by decide +kernel : ∀ t : Fin grid0.N, condAcc (grid0.coords t) ↔ ¬ t.val % 8 = 7)
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
/-- Away from the last reduction step nothing is stored into the output block, -/
theorem idle2 : ∀ t : Fin cfg0.N, ¬ t.val % 8 = 7 → cfg0.idle 2 (grid0.coords t) = true := by decide +kernel
/-- and it is not written back there. -/
theorem noFlush2 : ∀ t : Fin cfg0.N, ¬ t.val % 8 = 7 → (cfg0.win 2).flush t = false := by decide +kernel
/-- At the last reduction step the output block is stored. -/
theorem live2 : ∀ t : Fin cfg0.N, t.val % 8 = 7 → cfg0.idle 2 (grid0.coords t) = false := by decide +kernel

/-! ## The memrefs the body is called with -/

abbrev msA (t : Fin cfg0.N) : Memref sig .tc .vmem S1024x2048 .f32 := win0_0.stage (cfg0.slots t 0)
abbrev hsA (t : Fin cfg0.N) : (msA t).IsWhole := hstage0_0 ((cfg0.slots t 0).cast nbuf0_0)
abbrev msX (t : Fin cfg0.N) : Memref sig .tc .vmem S32x16384 .f32 := win0_1.stage (cfg0.slots t 1)
abbrev hsX (t : Fin cfg0.N) : (msX t).IsWhole := hstage0_1 ((cfg0.slots t 1).cast nbuf0_1)
abbrev msO (t : Fin cfg0.N) : Memref sig .tc .vmem S32x1024 .f32 := win0_2.stage (cfg0.slots t 2)
abbrev hsO (t : Fin cfg0.N) : (msO t).IsWhole := hstage0_2 ((cfg0.slots t 2).cast nbuf0_2)
/-- The accumulator: a whole scoped buffer of the kernel's own, carried from point to point. -/
abbrev accM : Memref sig .tc .vmem S32x1024 .f32 := Memref.whole cc0_scratch0
abbrev accV : View sig .tc .vmem S32x1024 .f32 := accM.view
/-- One staging buffer of the output window, through which its contents are stated. -/
abbrev outV : View sig .tc .vmem S32x1024 .f32 := (Memref.whole cc0_stg2_0 : Memref sig .tc .vmem S32x1024 .f32).view

/-- The region's invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Body

end
-- ==== Proof.KIRunFirst.lean ====
/-
  The body at a point of the first reduction step (k = 0). Handed the adjacency tile, the resident modulated-spikes
  array, the output block's buffer (idle here: handed back untouched) and the accumulator at anything, it runs to the
  end leaving the inputs as they were and the accumulator with its stores written: the zero block, then the zero block
  read back plus the step's partial product. The stores are found by running the body; they are the witness.
-/
import proofs.«111642_j22608707846341_2_alg».proof.Proof.KICases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords)
    (arg2 : Memref sig .tc .vmem S1024x2048 .f32) (harg2 : arg2.IsWhole)
    (arg3 : Memref sig .tc .vmem S32x16384 .f32) (harg3 : arg3.IsWhole)
    (arg4 : Memref sig .tc .vmem S32x1024 .f32) (harg4 : arg4.IsWhole)
    (arg5 : Memref sig .tc .vmem S32x1024 .f32) (harg5 : arg5.IsWhole)
    (hc0 : condFirst i) (hc1 : condAcc i) (hc2 : ¬condLast i)
    (x0 : Vec F S1024x2048 .f32) (x1 : Vec F S32x16384 .f32) :
    { LS : List (View.Piece (Elt F) S32x1024 .f32) //
      ∀ (xi : Vec F S32x1024 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc0__mv_kernel i arg2 harg2 arg3 harg3 arg4 harg4 arg5 harg5) K } := by
  refine ⟨?_, fun xi E K => ?run⟩
  case run =>
    simp only [cc0__mv_kernel_eq_skeleton]; unfold cc0__mv_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Body

end
-- ==== Proof.KIRunMiddle.lean ====
/-
  The body at a point of a middle reduction step (1 ≤ k ≤ 6). Handed the inputs, the output block's buffer (idle:
  handed back untouched) and the accumulator at what the step before left, it leaves the accumulator with one store
  written: its contents plus the step's partial product.
-/
import proofs.«111642_j22608707846341_2_alg».proof.Proof.KIRunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMiddle (c : Dev nD) (i : grid0.Coords)
    (arg2 : Memref sig .tc .vmem S1024x2048 .f32) (harg2 : arg2.IsWhole)
    (arg3 : Memref sig .tc .vmem S32x16384 .f32) (harg3 : arg3.IsWhole)
    (arg4 : Memref sig .tc .vmem S32x1024 .f32) (harg4 : arg4.IsWhole)
    (arg5 : Memref sig .tc .vmem S32x1024 .f32) (harg5 : arg5.IsWhole)
    (hc0 : ¬condFirst i) (hc1 : condAcc i) (hc2 : ¬condLast i)
    (x0 : Vec F S1024x2048 .f32) (x1 : Vec F S32x16384 .f32) (xs : Vec F S32x1024 .f32) :
    { LS : List (View.Piece (Elt F) S32x1024 .f32) //
      ∀ (xi : Vec F S32x1024 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc0__mv_kernel i arg2 harg2 arg3 harg3 arg4 harg4 arg5 harg5) K } := by
  refine ⟨?_, fun xi E K => ?run⟩
  case run =>
    simp only [cc0__mv_kernel_eq_skeleton]; unfold cc0__mv_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Body

end
-- ==== Proof.KIRunLast.lean ====
/-
  The body at a point of the last reduction step (k = 7). Handed the inputs, the output block's buffer at anything and
  the accumulator at what the step before left, it leaves the output block's buffer with one store written —
  the accumulator plus the step's partial product — and the accumulator as it was (it is only read).
-/
import proofs.«111642_j22608707846341_2_alg».proof.Proof.KIRunMiddle

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid0.Coords)
    (arg2 : Memref sig .tc .vmem S1024x2048 .f32) (harg2 : arg2.IsWhole)
    (arg3 : Memref sig .tc .vmem S32x16384 .f32) (harg3 : arg3.IsWhole)
    (arg4 : Memref sig .tc .vmem S32x1024 .f32) (harg4 : arg4.IsWhole)
    (arg5 : Memref sig .tc .vmem S32x1024 .f32) (harg5 : arg5.IsWhole)
    (hc0 : ¬condFirst i) (hc1 : ¬condAcc i) (hc2 : condLast i)
    (x0 : Vec F S1024x2048 .f32) (x1 : Vec F S32x16384 .f32) (xs : Vec F S32x1024 .f32) :
    { LO : List (View.Piece (Elt F) S32x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ owns (c : Thread nD τ) arg5 fullShare xs) -∗ K ⟨⟩))
          ⊢ wp frame (wpE (defs₀ (F := F)) Variants.none c none) E (cc0__mv_kernel i arg2 harg2 arg3 harg3 arg4 harg4 arg5 harg5) K } := by
  refine ⟨?_, fun E K => ?run⟩
  case run =>
    simp only [cc0__mv_kernel_eq_skeleton]; unfold cc0__mv_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; isplitr; · ipureintro; exact harg5.read_unread _
    iexact HS

end Cert.KernelIdeal.Body

end
-- ==== Proof.KIFrame.lean ====
/-
  The frame of the mat-vec kernel: the proof data of its one pipeline and the body's obligation at every grid point.
  What the accumulator holds after point t is defined by recursion on t — at k = t mod 8 = 0 what the first case
  leaves, at 1 ≤ k ≤ 6 what the middle case leaves over the step before, at k = 7 what the step before left (the last
  case only reads it) — and the output block's buffer holds, after a point with k = 7, what the last case stores over
  the accumulator of the step before. The region's invariant carries the accumulator at that value from point to point:
  anything before the first point, forgotten after the last. Each grid point is in exactly one case by t mod 8, and there
  the case's run applies. The launch is the library's frame run with a tracking invariant and host lines after the region.
-/
import proofs.«111642_j22608707846341_2_alg».proof.Proof.KIRunLast

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem ne7_of_0 {k : ℕ} (h : k % 8 = 0) : ¬ k % 8 = 7 := by omega

/-! ## What each case leaves -/

section pieces
variable (c : Dev nD) (i : grid0.Coords)
    (arg2 : Memref sig .tc .vmem S1024x2048 .f32) (harg2 : arg2.IsWhole)
    (arg3 : Memref sig .tc .vmem S32x16384 .f32) (harg3 : arg3.IsWhole)
    (arg4 : Memref sig .tc .vmem S32x1024 .f32) (harg4 : arg4.IsWhole)
    (arg5 : Memref sig .tc .vmem S32x1024 .f32) (harg5 : arg5.IsWhole)
    (x0 : Vec F S1024x2048 .f32) (x1 : Vec F S32x16384 .f32) (xs : Vec F S32x1024 .f32)

/-- The first case's stores into the accumulator cover it. -/
theorem coverFirst (hc0 : condFirst i) (hc1 : condAcc i) (hc2 : ¬condLast i) (y : S32x1024.Idx) :
    ∃ pc ∈ (runFirst c i arg2 harg2 arg3 harg3 arg4 harg4 arg5 harg5 hc0 hc1 hc2 x0 x1).1, y ∈ pc.1.set :=
  View.cover_of_tiledL (runFirst c i arg2 harg2 arg3 harg3 arg4 harg4 arg5 harg5 hc0 hc1 hc2 x0 x1).1 S32x1024.size (by sl_kernel_rfl) y
/-- What the first case leaves in the accumulator. -/
def accFirst (hc0 : condFirst i) (hc1 : condAcc i) (hc2 : ¬condLast i) : Vec F S32x1024 .f32 :=
  accV.read (Elt F) (accV.writes (Elt F) accV.junk (runFirst c i arg2 harg2 arg3 harg3 arg4 harg4 arg5 harg5 hc0 hc1 hc2 x0 x1).1)

/-- The middle case's store into the accumulator covers it. -/
theorem coverMiddle (hc0 : ¬condFirst i) (hc1 : condAcc i) (hc2 : ¬condLast i) (y : S32x1024.Idx) :
    ∃ pc ∈ (runMiddle c i arg2 harg2 arg3 harg3 arg4 harg4 arg5 harg5 hc0 hc1 hc2 x0 x1 xs).1, y ∈ pc.1.set :=
  View.cover_of_tiledL (runMiddle c i arg2 harg2 arg3 harg3 arg4 harg4 arg5 harg5 hc0 hc1 hc2 x0 x1 xs).1 S32x1024.size (by sl_kernel_rfl) y
/-- What the middle case leaves in the accumulator. -/
def accMiddle (hc0 : ¬condFirst i) (hc1 : condAcc i) (hc2 : ¬condLast i) : Vec F S32x1024 .f32 :=
  accV.read (Elt F) (accV.writes (Elt F) accV.junk (runMiddle c i arg2 harg2 arg3 harg3 arg4 harg4 arg5 harg5 hc0 hc1 hc2 x0 x1 xs).1)

/-- The last case's store into the output block's buffer covers it. -/
theorem coverLast (hc0 : ¬condFirst i) (hc1 : ¬condAcc i) (hc2 : condLast i) (y : S32x1024.Idx) :
    ∃ pc ∈ (runLast c i arg2 harg2 arg3 harg3 arg4 harg4 arg5 harg5 hc0 hc1 hc2 x0 x1 xs).1, y ∈ pc.1.set :=
  View.cover_of_tiledL (runLast c i arg2 harg2 arg3 harg3 arg4 harg4 arg5 harg5 hc0 hc1 hc2 x0 x1 xs).1 S32x1024.size (by sl_kernel_rfl) y
/-- What the last case leaves in the output block's buffer. -/
def outLast (hc0 : ¬condFirst i) (hc1 : ¬condAcc i) (hc2 : condLast i) : Vec F S32x1024 .f32 :=
  outV.read (Elt F) (outV.writes (Elt F) outV.junk (runLast c i arg2 harg2 arg3 harg3 arg4 harg4 arg5 harg5 hc0 hc1 hc2 x0 x1 xs).1)

end pieces

/-- The output block's buffer where nothing is stored into it: a placeholder nothing consults (the window is idle and
    not written back there). -/
def idleOut : Vec F S32x1024 .f32 := outV.read (Elt F) outV.junk

/-! ## What the output block's buffer and the accumulator hold after each point -/

/-- After position `n`: (the output block's buffer, the accumulator). -/
def outsAt (c : Dev nD) : (n : ℕ) → n < cfg0.N → Vec F S32x1024 .f32 × Vec F S32x1024 .f32
  | 0, hn => (idleOut, accFirst c (grid0.coords ⟨0, hn⟩) (msA ⟨0, hn⟩) (hsA ⟨0, hn⟩) (msX ⟨0, hn⟩) (hsX ⟨0, hn⟩) (msO ⟨0, hn⟩) (hsO ⟨0, hn⟩) accM (Memref.isWhole_whole _) (iblk m c 0 ⟨0, hn⟩) (iblk m c 1 ⟨0, hn⟩) ((hcondFirst ⟨0, hn⟩).mpr (Nat.zero_mod 8)) ((hcondAcc ⟨0, hn⟩).mpr (ne7_of_0 (Nat.zero_mod 8))) (fun h => ne7_of_0 (Nat.zero_mod 8) ((hcondLast ⟨0, hn⟩).mp h)))
  | n + 1, hn =>
    if h0 : (n + 1) % 8 = 0 then
      (idleOut, accFirst c (grid0.coords ⟨n + 1, hn⟩) (msA ⟨n + 1, hn⟩) (hsA ⟨n + 1, hn⟩) (msX ⟨n + 1, hn⟩) (hsX ⟨n + 1, hn⟩) (msO ⟨n + 1, hn⟩) (hsO ⟨n + 1, hn⟩) accM (Memref.isWhole_whole _) (iblk m c 0 ⟨n + 1, hn⟩) (iblk m c 1 ⟨n + 1, hn⟩) ((hcondFirst ⟨n + 1, hn⟩).mpr h0) ((hcondAcc ⟨n + 1, hn⟩).mpr (ne7_of_0 h0)) (fun h => ne7_of_0 h0 ((hcondLast ⟨n + 1, hn⟩).mp h)))
    else if h7 : (n + 1) % 8 = 7 then
      (outLast c (grid0.coords ⟨n + 1, hn⟩) (msA ⟨n + 1, hn⟩) (hsA ⟨n + 1, hn⟩) (msX ⟨n + 1, hn⟩) (hsX ⟨n + 1, hn⟩) (msO ⟨n + 1, hn⟩) (hsO ⟨n + 1, hn⟩) accM (Memref.isWhole_whole _) (iblk m c 0 ⟨n + 1, hn⟩) (iblk m c 1 ⟨n + 1, hn⟩) (outsAt c n (Nat.lt_of_succ_lt hn)).2 (fun h => h0 ((hcondFirst ⟨n + 1, hn⟩).mp h)) (fun h => ((hcondAcc ⟨n + 1, hn⟩).mp h) h7) ((hcondLast ⟨n + 1, hn⟩).mpr h7), (outsAt c n (Nat.lt_of_succ_lt hn)).2)
    else
      (idleOut, accMiddle c (grid0.coords ⟨n + 1, hn⟩) (msA ⟨n + 1, hn⟩) (hsA ⟨n + 1, hn⟩) (msX ⟨n + 1, hn⟩) (hsX ⟨n + 1, hn⟩) (msO ⟨n + 1, hn⟩) (hsO ⟨n + 1, hn⟩) accM (Memref.isWhole_whole _) (iblk m c 0 ⟨n + 1, hn⟩) (iblk m c 1 ⟨n + 1, hn⟩) (outsAt c n (Nat.lt_of_succ_lt hn)).2 (fun h => h0 ((hcondFirst ⟨n + 1, hn⟩).mp h)) ((hcondAcc ⟨n + 1, hn⟩).mpr h7) (fun h => h7 ((hcondLast ⟨n + 1, hn⟩).mp h)))

theorem outsAt_first (c : Dev nD) (t : Fin cfg0.N) (h0 : t.val % 8 = 0) :
    outsAt m c t.val t.isLt = (idleOut, accFirst c (grid0.coords t) (msA t) (hsA t) (msX t) (hsX t) (msO t) (hsO t) accM (Memref.isWhole_whole _) (iblk m c 0 t) (iblk m c 1 t) ((hcondFirst t).mpr h0) ((hcondAcc t).mpr (ne7_of_0 h0)) (fun h => ne7_of_0 h0 ((hcondLast t).mp h))) := by
  obtain ⟨n, hn⟩ := t
  cases n with
  | zero => exact rfl
  | succ n => exact (dif_pos h0).trans rfl

theorem outsAt_middle (c : Dev nD) (t : Fin cfg0.N) (h0 : ¬t.val % 8 = 0) (h7 : ¬t.val % 8 = 7) :
    outsAt m c t.val t.isLt = (idleOut, accMiddle c (grid0.coords t) (msA t) (hsA t) (msX t) (hsX t) (msO t) (hsO t) accM (Memref.isWhole_whole _) (iblk m c 0 t) (iblk m c 1 t) (outsAt m c (t.val - 1) (Nat.lt_of_le_of_lt (Nat.sub_le _ _) t.isLt)).2 (fun h => h0 ((hcondFirst t).mp h)) ((hcondAcc t).mpr h7) (fun h => h7 ((hcondLast t).mp h))) := by
  obtain ⟨n, hn⟩ := t
  cases n with
  | zero => exact (by exfalso; (try dsimp only at h0); exact absurd (Nat.zero_mod _) h0)
  | succ n => exact (dif_neg h0).trans ((dif_neg h7).trans rfl)

theorem outsAt_last (c : Dev nD) (t : Fin cfg0.N) (h0 : ¬t.val % 8 = 0) (h7 : t.val % 8 = 7) :
    outsAt m c t.val t.isLt = (outLast c (grid0.coords t) (msA t) (hsA t) (msX t) (hsX t) (msO t) (hsO t) accM (Memref.isWhole_whole _) (iblk m c 0 t) (iblk m c 1 t) (outsAt m c (t.val - 1) (Nat.lt_of_le_of_lt (Nat.sub_le _ _) t.isLt)).2 (fun h => h0 ((hcondFirst t).mp h)) (fun h => ((hcondAcc t).mp h) h7) ((hcondLast t).mpr h7), (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h7).trans rfl)

/-! ## The region's invariant, point by point -/

/-- Before position `n`: before the first point the accumulator holds anything; afterwards what the point before left. -/
def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The pipeline's proof data -/

/-- The arrays as the region finds them; after the body each input's buffer at its block and the output block's buffer at
    `outsAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (msA t) fullShare ((dats m 0 c).before 0 t d))
    ∗ (∃ d, owns (c : Thread nD τ) (msX t) fullShare ((dats m 0 c).before 1 t d))
    ∗ (∃ d, owns (c : Thread nD τ) (msO t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (msA t) fullShare (iblk m c 0 t) := by
  unfold Dat.leavesExact; rw [live0 t, after0]
theorem leaves1 (c : Dev nD) (t : Fin cfg0.N) :
    (dats m 0 c).leavesExact 1 t = owns (c : Thread nD τ) (msX t) fullShare (iblk m c 1 t) := by
  unfold Dat.leavesExact; rw [live1 t, after1]
theorem leaves2 (c : Dev nD) (t : Fin cfg0.N) (h7 : t.val % 8 = 7) :
    (dats m 0 c).leavesExact 2 t = owns (c : Thread nD τ) (msO t) fullShare ((outsAt m c t.val t.isLt).1) := by
  unfold Dat.leavesExact; rw [live2 t h7, after2]

set_option maxHeartbeats 4800000 in
/-- The body at any point: the inputs' buffers hold their blocks; `t mod 8` says which case the point is in; the invariant
    hands the body the accumulator at what the point before left (at anything before the first point) and takes it back at
    this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1]
  have hN : t.val < 128 := lt_of_lt_of_eq t.isLt (show cfg0.N = 128 from N_0)
  by_cases h0 : t.val % 8 = 0
  · have h7 : ¬t.val % 8 = 7 := ne7_of_0 h0
    rw [Dat.leavesExact_idle (dats m 0 c) 2 t (idle2 t h7) (noFlush2 t h7)]
    rw [outsAt_first m c t h0]
    unfold accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩⟩
      iapply ((runFirst c (grid0.coords t) _ _ _ _ _ _ _ _ ((hcondFirst t).mpr h0) ((hcondAcc t).mpr (ne7_of_0 h0)) (fun h => ne7_of_0 h0 ((hcondLast t).mp h)) (iblk m c 0 t) (iblk m c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS, Hg⟩, Ho, ⟨%d0, H0⟩, ⟨%d1, H1⟩, ⟨%d2, H2⟩⟩
      iapply ((runFirst c (grid0.coords t) _ _ _ _ _ _ _ _ ((hcondFirst t).mpr h0) ((hcondAcc t).mpr (ne7_of_0 h0)) (fun h => ne7_of_0 h0 ((hcondLast t).mp h)) (iblk m c 0 t) (iblk m c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h7 : t.val % 8 = 7
    · rw [leaves2 m c t h7]
      rw [outsAt_last m c t h0 h7]
      unfold outLast; (try dsimp only)
      rw [PhiS_castSucc m c t, PhiS_pos m c _ _ hz]
      iintro ⟨⟨HS, Hg⟩, Ho, ⟨%d0, H0⟩, ⟨%d1, H1⟩, ⟨%d2, H2⟩⟩
      iapply ((runLast c (grid0.coords t) _ _ _ _ _ _ _ _ (fun h => h0 ((hcondFirst t).mp h)) (fun h => ((hcondAcc t).mp h) h7) ((hcondLast t).mpr h7) (iblk m c 0 t) (iblk m c 1 t) _).2 Set.univ _)
      isplitl [H0]; · iexact H0
      isplitl [H1]; · iexact H1
      isplitl [H2]; · iexists _; iexact H2
      isplitl [HS]; · iexact HS
      iintro ⟨H0, H1, ⟨%e2, H2⟩, HS⟩
      isplitl [HS Hg]
      · isplitl [HS]; · iexact HS
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast c _ _ _ _ _ _ _ _ _ _ _ _ _ _ _)
    · rw [Dat.leavesExact_idle (dats m 0 c) 2 t (idle2 t h7) (noFlush2 t h7)]
      rw [outsAt_middle m c t h0 h7]
      unfold accMiddle; (try dsimp only)
      rw [PhiS_castSucc m c t, PhiS_pos m c _ _ hz]
      iintro ⟨⟨HS, Hg⟩, Ho, ⟨%d0, H0⟩, ⟨%d1, H1⟩, ⟨%d2, H2⟩⟩
      iapply ((runMiddle c (grid0.coords t) _ _ _ _ _ _ _ _ (fun h => h0 ((hcondFirst t).mp h)) ((hcondAcc t).mpr h7) (fun h => h7 ((hcondLast t).mp h)) (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverMiddle c _ _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KIPieces.lean ====
/-
  What each case leaves, as a value: every store goes through the whole buffer, so what a buffer holds after the body is
  its last store's payload, and a load of the whole buffer reads its contents. With `lanes` the 2048 columns of the
  resident modulated-spikes array the step loads (columns 2048·k … 2048·k + 2047):
    first  : accumulator  = (zero block) + partial product          (the zero block stored, read back, added to)
    middle : accumulator  = (accumulator before) + partial product
    last   : output block = (accumulator before) + partial product.
-/
import proofs.«111642_j22608707846341_2_alg».proof.Proof.KIFrame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The columns of the resident array the step at coordinates `i` loads. -/
def lanes (i : grid0.Coords) (x1 : Vec F S32x16384 .f32) : Vec F S32x2048 .f32 :=
  View.ld x1 (Rect.unit (s := S32x16384) (k0_off1 i) S32x2048.size (k0_off1_inb i))

section
variable (c : Dev nD) (i : grid0.Coords)
    (arg2 : Memref sig .tc .vmem S1024x2048 .f32) (harg2 : arg2.IsWhole)
    (arg3 : Memref sig .tc .vmem S32x16384 .f32) (harg3 : arg3.IsWhole)
    (arg4 : Memref sig .tc .vmem S32x1024 .f32) (harg4 : arg4.IsWhole)
    (arg5 : Memref sig .tc .vmem S32x1024 .f32) (harg5 : arg5.IsWhole)
    (x0 : Vec F S1024x2048 .f32) (x1 : Vec F S32x16384 .f32) (xs : Vec F S32x1024 .f32)

theorem accMiddle_eq (hc0 : ¬condFirst i) (hc1 : condAcc i) (hc2 : ¬condLast i) :
    accMiddle c i arg2 harg2 arg3 harg3 arg4 harg4 arg5 harg5 x0 x1 xs hc0 hc1 hc2 = k0_pay3 (lanes i x1) x0 xs := by
  unfold accMiddle
  rw [View.read_writes_eq_canon _ _ _ (coverMiddle c i arg2 harg2 arg3 harg3 arg4 harg4 arg5 harg5 x0 x1 xs hc0 hc1 hc2)]
  unfold runMiddle
  dsimp only
  sl_unfold_words
  rw [View.canon_unit_zero hz2]
  simp only [View.readAt_eq_ld, harg2.read_unread, harg3.read_unread, harg5.read_unread,
    View.ld_unit_zero (S := S32x1024) hz2, View.ld_unit_zero (S := S1024x2048) hz2]
  unfold lanes; rfl

theorem accFirst_eq (hc0 : condFirst i) (hc1 : condAcc i) (hc2 : ¬condLast i) :
    accFirst c i arg2 harg2 arg3 harg3 arg4 harg4 arg5 harg5 x0 x1 hc0 hc1 hc2 = k0_pay3 (lanes i x1) x0 (k0_pay1 (F := F)) := by
  unfold accFirst
  rw [View.read_writes_eq_canon _ _ _ (coverFirst c i arg2 harg2 arg3 harg3 arg4 harg4 arg5 harg5 x0 x1 hc0 hc1 hc2)]
  unfold runFirst
  dsimp only
  sl_unfold_words
  rw [View.canon_cons_unit_zero (S := S32x1024) hz2, View.readCov_unit_zero (S := S32x1024) _ hz2]
  simp only [View.readAt_eq_ld, harg2.read_unread, harg3.read_unread, harg5.read_unread,
    View.ld_unit_zero (S := S32x1024) hz2, View.ld_unit_zero (S := S1024x2048) hz2]
  unfold lanes; rfl

theorem outLast_eq (hc0 : ¬condFirst i) (hc1 : ¬condAcc i) (hc2 : condLast i) :
    outLast c i arg2 harg2 arg3 harg3 arg4 harg4 arg5 harg5 x0 x1 xs hc0 hc1 hc2 = k0_pay4 (lanes i x1) x0 xs := by
  unfold outLast
  rw [View.read_writes_eq_canon _ _ _ (coverLast c i arg2 harg2 arg3 harg3 arg4 harg4 arg5 harg5 x0 x1 xs hc0 hc1 hc2)]
  unfold runLast
  dsimp only
  sl_unfold_words
  rw [View.canon_unit_zero hz2]
  simp only [View.readAt_eq_ld, harg2.read_unread, harg3.read_unread, harg5.read_unread,
    View.ld_unit_zero (S := S32x1024) hz2, View.ld_unit_zero (S := S1024x2048) hz2]
  unfold lanes; rfl

end

end Cert.KernelIdeal.Body

end
-- ==== Proof.KIPayload.lean ====
/-
  The payloads at an index, over the extended reals. A change of float format is the identity, the matrix product into
  a zero accumulator is the plain sum over the contracted axis, so at output position (b, r)
      partial product = Σ_{s < 2048} lanes[b, s] · tile[r, s],
  the zero block is 0, and the two stored values are (what was loaded) + (partial product).
-/
import proofs.«111642_j22608707846341_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.TcCoe Idealize.SL.Sem

/-- Row `b` of the loaded columns at contracted position `k`. -/
abbrev lanesIdx (y : S32x1024.Idx) (k : Fin 2048) : S32x2048.Idx := fun a => match a with
  | ⟨0, _⟩ => ⟨(y 0).val, (y 0).isLt⟩
  | ⟨1, _⟩ => ⟨k.val, k.isLt⟩
/-- Row `r` of the adjacency tile at contracted position `k`. -/
abbrev tileIdx (y : S32x1024.Idx) (k : Fin 2048) : S1024x2048.Idx := fun a => match a with
  | ⟨0, _⟩ => ⟨(y 1).val, (y 1).isLt⟩
  | ⟨1, _⟩ => ⟨k.val, k.isLt⟩

theorem lhs_0 (y : S32x1024.Idx) (q : dot_S32x2048_S1024x2048_S32x1024_1_1_0_0_n_n.contr.Idx) : (dot_S32x2048_S1024x2048_S32x1024_1_1_0_0_n_n.lhsIdx y q 0).val = (y 0).val := by
  unfold DotDims.lhsIdx
  rw [dif_neg (show ¬(0 : Fin S32x2048.rank) ∈ dot_S32x2048_S1024x2048_S32x1024_1_1_0_0_n_n.lhsBatch by decide), dif_pos (show (0 : Fin S32x2048.rank) ∈ dot_S32x2048_S1024x2048_S32x1024_1_1_0_0_n_n.lhsNonContracting by decide)]
  rfl
theorem lhs_1 (y : S32x1024.Idx) (q : dot_S32x2048_S1024x2048_S32x1024_1_1_0_0_n_n.contr.Idx) : (dot_S32x2048_S1024x2048_S32x1024_1_1_0_0_n_n.lhsIdx y q 1).val = (q ⟨0, by decide⟩).val :=
  dot_S32x2048_S1024x2048_S32x1024_1_1_0_0_n_n.lhsIdx_val_of_single rfl y q
theorem rhs_0 (y : S32x1024.Idx) (q : dot_S32x2048_S1024x2048_S32x1024_1_1_0_0_n_n.contr.Idx) : (dot_S32x2048_S1024x2048_S32x1024_1_1_0_0_n_n.rhsIdx y q 0).val = (y 1).val := by
  unfold DotDims.rhsIdx
  rw [dif_neg (show ¬(0 : Fin S1024x2048.rank) ∈ dot_S32x2048_S1024x2048_S32x1024_1_1_0_0_n_n.rhsBatch by decide), dif_pos (show (0 : Fin S1024x2048.rank) ∈ dot_S32x2048_S1024x2048_S32x1024_1_1_0_0_n_n.rhsNonContracting by decide)]
  rfl
theorem rhs_1 (y : S32x1024.Idx) (q : dot_S32x2048_S1024x2048_S32x1024_1_1_0_0_n_n.contr.Idx) : (dot_S32x2048_S1024x2048_S32x1024_1_1_0_0_n_n.rhsIdx y q 1).val = (q ⟨0, by decide⟩).val :=
  dot_S32x2048_S1024x2048_S32x1024_1_1_0_0_n_n.rhsIdx_val_of_single rfl y q

/-- The step's partial product at (b, r): the sum over the 2048 contracted columns. -/
theorem pay2_apply (v7 : Vec Ideal S32x2048 .f32) (v10 : Vec Ideal S1024x2048 .f32) (y : S32x1024.Idx) :
    k0_pay2 (F := Ideal) v7 v10 y = ∑ k : Fin 2048, v7 (lanesIdx y k) * v10 (tileIdx y k) := by
  unfold k0_pay2
  simp only [shapeCast_self]
  refine (Ideal.matmul_constant_zero_apply dot_S32x2048_S1024x2048_S32x1024_1_1_0_0_n_n none _ _ y).trans ?_
  rw [← Equiv.sum_comp (ValueIdx.contrEquiv1 dot_S32x2048_S1024x2048_S32x1024_1_1_0_0_n_n 2048 rfl rfl).symm]
  refine Finset.sum_congr rfl fun k _ => ?_
  have hk := ValueIdx.contrEquiv1_symm_val dot_S32x2048_S1024x2048_S32x1024_1_1_0_0_n_n 2048 rfl rfl k
  have el : dot_S32x2048_S1024x2048_S32x1024_1_1_0_0_n_n.lhsIdx y ((ValueIdx.contrEquiv1 dot_S32x2048_S1024x2048_S32x1024_1_1_0_0_n_n 2048 rfl rfl).symm k) = lanesIdx y k := funext fun a => Fin.ext (by
    match a with
    | ⟨0, _⟩ => exact lhs_0 _ _
    | ⟨1, _⟩ => exact (lhs_1 _ _).trans hk)
  have er : dot_S32x2048_S1024x2048_S32x1024_1_1_0_0_n_n.rhsIdx y ((ValueIdx.contrEquiv1 dot_S32x2048_S1024x2048_S32x1024_1_1_0_0_n_n 2048 rfl rfl).symm k) = tileIdx y k := funext fun a => Fin.ext (by
    match a with
    | ⟨0, _⟩ => exact rhs_0 _ _
    | ⟨1, _⟩ => exact (rhs_1 _ _).trans hk)
  rw [el, er]
  rfl

/-- The zero block is 0 everywhere. -/
theorem pay1_apply (y : S32x1024.Idx) : k0_pay1 (F := Ideal) y = 0 := by
  unfold k0_pay1
  simp only [shapeCast_self]
  show Ideal.ofBits .f32 0x00000000#32 = 0
  exact Ideal.ofBits_zero_f32

/-- What is stored into the accumulator: what was loaded plus the partial product. -/
theorem pay3_apply (v7 : Vec Ideal S32x2048 .f32) (v10 : Vec Ideal S1024x2048 .f32) (v18 : Vec Ideal S32x1024 .f32) (y : S32x1024.Idx) :
    k0_pay3 (F := Ideal) v7 v10 v18 y = v18 y + k0_pay2 (F := Ideal) v7 v10 y := by
  unfold k0_pay3
  simp only [shapeCast_self]
  rfl

/-- What is stored into the output block: the same sum. -/
theorem pay4_apply (v7 : Vec Ideal S32x2048 .f32) (v10 : Vec Ideal S1024x2048 .f32) (v18 : Vec Ideal S32x1024 .f32) (y : S32x1024.Idx) :
    k0_pay4 (F := Ideal) v7 v10 v18 y = v18 y + k0_pay2 (F := Ideal) v7 v10 y := by
  unfold k0_pay4
  rfl

end Cert.KernelIdeal.Body

end
-- ==== Proof.LibSumBlocks.lean ====
/-
  Re-grouping a finite sum into consecutive blocks, in any commutative additive monoid (so in particular over the extended
  reals, where it needs no finiteness): a sum over J·B consecutive naturals is the sum over J blocks of B. This is the law
  behind a contraction that is accumulated block by block along its contracted axis (a K-blocked matrix product kept in an
  accumulator across grid points or loop trips) against ONE whole contraction.
-/
import Mathlib.Algebra.BigOperators.Fin

namespace Cert.LibSumBlocks

/-- A sum over `J * B` consecutive naturals is the sum over `J` blocks of `B`: term `x = j * B + s` is term `s` of block `j`. -/
theorem sum_range_blocks {M : Type*} [AddCommMonoid M] (g : ℕ → M) (B : ℕ) : ∀ J : ℕ,
    ∑ x ∈ Finset.range (J * B), g x = ∑ j ∈ Finset.range J, ∑ s ∈ Finset.range B, g (j * B + s)
  | 0 => by simp
  | J + 1 => by
    rw [Nat.succ_mul, Finset.sum_range_add, Finset.sum_range_succ, sum_range_blocks g B J]

/-- The same with the whole sum over the index type `Fin (J * B)` (the form a contraction read at an index has). -/
theorem sum_fin_blocks {M : Type*} [AddCommMonoid M] (g : ℕ → M) (B J : ℕ) :
    ∑ k : Fin (J * B), g k.val = ∑ j ∈ Finset.range J, ∑ s ∈ Finset.range B, g (j * B + s) :=
  (Finset.sum_range g).symm.trans (sum_range_blocks g B J)

end Cert.LibSumBlocks
-- ==== Proof.MatVecAlgebra.lean ====
/-
  The arithmetic the two programs share, over the extended reals, with no program in sight.

  (1) The three float constants the programs spell denote 3/2, 1/2 and 1.
  (2) On a REAL mask value e the two gains agree:  (3/2)·e − 1/2 = e − (1/2)·(1 − e).  This is distributivity, which holds
      among real numbers; it is why the inputs' finiteness is used.
  (3) A contraction of length 16384 is the sum of its 8 consecutive blocks of length 2048 — re-grouping a finite sum, which
      needs only that addition of extended reals is commutative and associative.
-/
import proofs.«111642_j22608707846341_2_alg».proof.Proof.LibSumBlocks
import Idealize.ShloMosaic.PureOps.Ideal
import Idealize.ShloMosaic.Lib.ValueIdx

noncomputable section

namespace Cert.MatVec

open Idealize.ShloMosaic Idealize.ShloMosaic.ValueIdx

/-! ## The constants -/

theorem ofBits_three_halves : Ideal.ofBits .f32 0x3FC00000#32 = ((3 / 2 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num

/-! ## The gain -/

/-- On a real mask value the kernel's gain `(3/2)·e − 1/2` is the reference's `e − (1/2)·(1 − e)`. -/
theorem gain_eq (e : ℝ) :
    Ideal.ofBits .f32 0x3FC00000#32 * (e : EReal) - Ideal.ofBits .f32 0x3F000000#32
      = (e : EReal) - Ideal.ofBits .f32 0x3F000000#32 * (Ideal.ofBits .f32 0x3F800000#32 - (e : EReal)) := by
  rw [ofBits_three_halves, ofBits_half, ofBits_one]
  rw [← EReal.coe_mul, ← EReal.coe_sub, ← EReal.coe_sub, ← EReal.coe_mul, ← EReal.coe_sub]
  congr 1; ring

/-! ## The contraction -/

/-- The modulated spikes `[32, 16384]` and the adjacency `[16384, 16384]`. -/
abbrev SM : Shape := ⟨2, ![32, 16384]⟩
abbrev SA : Shape := ⟨2, ![16384, 16384]⟩

/-- Column `x` (taken mod 16384, so that it is defined for every natural). -/
abbrev col (x : ℕ) : Fin 16384 := ⟨x % 16384, Nat.mod_lt _ (by decide)⟩

/-- The term of output (b, t) at column `x`. -/
def term (M : SM.Idx → EReal) (A : SA.Idx → EReal) (b : Fin 32) (t : Fin 16384) (x : ℕ) : EReal :=
  M (ix2 b (col x)) * A (ix2 t (col x))

/-- Output (b, t): the whole contraction. -/
def contraction (M : SM.Idx → EReal) (A : SA.Idx → EReal) (b : Fin 32) (t : Fin 16384) : EReal :=
  ∑ x ∈ Finset.range 16384, term M A b t x

/-- It is the sum of its 8 blocks of 2048 columns. -/
theorem contraction_blocks (M : SM.Idx → EReal) (A : SA.Idx → EReal) (b : Fin 32) (t : Fin 16384) :
    contraction M A b t = ∑ j ∈ Finset.range 8, ∑ s ∈ Finset.range 2048, term M A b t (j * 2048 + s) := by
  unfold contraction
  rw [show (16384 : ℕ) = 8 * 2048 from rfl]
  exact Cert.LibSumBlocks.sum_range_blocks _ 2048 8

/-- It is the sum over the columns as an index type. -/
theorem contraction_fin (M : SM.Idx → EReal) (A : SA.Idx → EReal) (b : Fin 32) (t : Fin 16384) :
    contraction M A b t = ∑ k : Fin 16384, M (ix2 b k) * A (ix2 t k) := by
  unfold contraction
  rw [Finset.sum_range]
  refine Finset.sum_congr rfl fun k _ => ?_
  have hk : col k.val = k := Fin.ext (Nat.mod_eq_of_lt k.isLt)
  unfold term
  rw [hk]

end Cert.MatVec

end
-- ==== Proof.KIBlocks.lean ====
/-
  The blocks the body is handed, read at an index, and the step's partial product in terms of the two arrays.
  Grid point t has row block t / 8 and reduction step t mod 8. The adjacency tile at t is rows 1024·(t/8) … and columns
  2048·(t mod 8) … of the adjacency; the resident operand's block is the whole modulated-spikes array, of which the body
  loads columns 2048·(t mod 8) …; so the partial product at (b, r) is block (t mod 8) of the contraction for output
  (b, 1024·(t/8) + r).
-/
import proofs.«111642_j22608707846341_2_alg».proof.Proof.KIPieces
import proofs.«111642_j22608707846341_2_alg».proof.Proof.KIPayload
import proofs.«111642_j22608707846341_2_alg».proof.Proof.MatVecAlgebra

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the blocks sit (decided over the 128 points) -/

theorem idxA : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem idxX : ∀ t : Fin cfg0.N, win0_1.index t 0 = 0 ∧ win0_1.index t 1 = 0 :=
  (by decide +kernel : ∀ t : Fin grid0.N, win0_1.index t 0 = 0 ∧ win0_1.index t 1 = 0)
theorem idxO : ∀ t : Fin cfg0.N, win0_2.index t 0 = 0 ∧ win0_2.index t 1 = t.val / 8 :=
  (by decide +kernel : ∀ t : Fin grid0.N, win0_2.index t 0 = 0 ∧ win0_2.index t 1 = t.val / 8)
theorem offLanes : ∀ t : Fin cfg0.N, k0_off1 (grid0.coords t) 0 = 0 ∧ k0_off1 (grid0.coords t) 1 = 2048 * (t.val % 8) :=
  (by decide +kernel : ∀ t : Fin grid0.N, k0_off1 (grid0.coords t) 0 = 0 ∧ k0_off1 (grid0.coords t) 1 = 2048 * (t.val % 8))

section blocks
variable (m : (ℓ : Loc nD τ sig) → Buf (Elt F) ℓ)

/-- The adjacency tile at point `t`, at (r, s): the adjacency at (1024·(t/8) + r, 2048·(t mod 8) + s). -/
theorem iblkA_apply (c : Dev nD) (t : Fin cfg0.N) (y : S1024x2048.Idx) (p : S16384x16384.Idx)
    (h0 : (p 0).val = 1024 * (t.val / 8) + (y 0).val) (h1 : (p 1).val = 2048 * (t.val % 8) + (y 1).val) :
    (iblk m c 0 t : Vec F S1024x2048 .f32) y = V m c main_arg2 p := by
  unfold iblk
  rw [View.read_apply]
  show V m c main_arg2 _ = V m c main_arg2 p
  congr 1
  funext a
  apply Fin.ext
  match a with
  | ⟨0, _⟩ => show win0_0.index t 0 * 1024 + 1 * (y 0).val = (p 0).val; rw [(idxA t).1, h0]; omega
  | ⟨1, _⟩ => show win0_0.index t 1 * 2048 + 1 * (y 1).val = (p 1).val; rw [(idxA t).2, h1]; omega

/-- The resident operand's block at any point is the whole modulated-spikes array. -/
theorem iblkX_eq (c : Dev nD) (t : Fin cfg0.N) : (iblk m c 1 t : Vec F S32x16384 .f32) = V m c main_v7 := by
  funext y
  unfold iblk
  rw [View.read_apply]
  show V m c main_v7 _ = V m c main_v7 y
  congr 1
  funext a
  apply Fin.ext
  match a with
  | ⟨0, _⟩ => show win0_1.index t 0 * 32 + 1 * (y 0).val = (y 0).val; rw [(idxX t).1]; omega
  | ⟨1, _⟩ => show win0_1.index t 1 * 16384 + 1 * (y 1).val = (y 1).val; rw [(idxX t).2]; omega

/-- The columns the step at point `t` loads, at (b, s): the array at (b, 2048·(t mod 8) + s). -/
theorem lanes_apply (t : Fin cfg0.N) (x1 : Vec F S32x16384 .f32) (y : S32x2048.Idx) (p : S32x16384.Idx)
    (h0 : (p 0).val = (y 0).val) (h1 : (p 1).val = 2048 * (t.val % 8) + (y 1).val) :
    lanes (grid0.coords t) x1 y = x1 p := by
  unfold lanes
  show x1 _ = x1 p
  congr 1
  funext a
  apply Fin.ext
  match a with
  | ⟨0, _⟩ => show k0_off1 (grid0.coords t) 0 + 1 * (y 0).val = (p 0).val; rw [(offLanes t).1, h0]; omega
  | ⟨1, _⟩ => show k0_off1 (grid0.coords t) 1 + 1 * (y 1).val = (p 1).val; rw [(offLanes t).2, h1]; omega

end blocks

/-! ## The partial product of a step, over the two arrays -/

open Cert.MatVec

/-- The batch row of a position of the [32, 1024] block. -/
abbrev batch (y : S32x1024.Idx) : Fin 32 := ⟨(y 0).val, (y 0).isLt⟩
/-- The adjacency row the position belongs to when the block is row block `n / 8` (defined for every natural `n`). -/
abbrev rowN (n : ℕ) (y : S32x1024.Idx) : Fin 16384 := ⟨(1024 * (n / 8) + (y 1).val) % 16384, Nat.mod_lt _ (by decide)⟩

/-- Block `j` of the contraction for the position's output, with the arrays `M`, `A`. -/
def blk (M : SM.Idx → EReal) (A : SA.Idx → EReal) (n j : ℕ) (y : S32x1024.Idx) : EReal :=
  ∑ s ∈ Finset.range 2048, term M A (batch y) (rowN n y) (j * 2048 + s)

theorem rowN_pred {n : ℕ} (h : ¬n % 8 = 0) (y : S32x1024.Idx) : rowN (n - 1) y = rowN n y := by
  apply Fin.ext
  show (1024 * ((n - 1) / 8) + (y 1).val) % 16384 = (1024 * (n / 8) + (y 1).val) % 16384
  have : (n - 1) / 8 = n / 8 := by omega
  rw [this]

theorem blk_pred (M : SM.Idx → EReal) (A : SA.Idx → EReal) {n : ℕ} (h : ¬n % 8 = 0) (j : ℕ) (y : S32x1024.Idx) :
    blk M A (n - 1) j y = blk M A n j y := by
  unfold blk; rw [rowN_pred h]

/-- The step's partial product at point `t` is block `t mod 8` of the contraction. -/
theorem partial_eq (m : (ℓ : Loc nD τ sig) → Buf (Elt Ideal) ℓ) (c : Dev nD) (t : Fin cfg0.N) (y : S32x1024.Idx) :
    k0_pay2 (F := Ideal) (lanes (grid0.coords t) (iblk m c 1 t)) (iblk m c 0 t) y
      = blk (V m c main_v7) (V m c main_arg2) t.val (t.val % 8) y := by
  have hN : t.val < 128 := lt_of_lt_of_eq t.isLt (show cfg0.N = 128 from N_0)
  have hy0 : (y 0).val < 32 := (y 0).isLt
  have hy1 : (y 1).val < 1024 := (y 1).isLt
  rw [pay2_apply]
  unfold blk
  rw [Finset.sum_range]
  refine Finset.sum_congr rfl fun k _ => ?_
  have hk : k.val < 2048 := k.isLt
  unfold term
  rw [lanes_apply t (iblk m c 1 t) (lanesIdx y k) (ValueIdx.ix2 (batch y) (col (t.val % 8 * 2048 + k.val))) rfl
      (by show (t.val % 8 * 2048 + k.val) % 16384 = 2048 * (t.val % 8) + k.val; omega),
    iblkX_eq,
    iblkA_apply m c t (tileIdx y k) (ValueIdx.ix2 (rowN t.val y) (col (t.val % 8 * 2048 + k.val)))
      (by show (1024 * (t.val / 8) + (y 1).val) % 16384 = 1024 * (t.val / 8) + (y 1).val; omega)
      (by show (t.val % 8 * 2048 + k.val) % 16384 = 2048 * (t.val % 8) + k.val; omega)]

end Cert.KernelIdeal.Body

end
-- ==== Proof.KIAccum.lean ====
/-
  The accumulation, in closed form. Write M for the modulated-spikes array and A for the adjacency as the region finds
  them. After grid point n (row block n / 8, reduction step k = n mod 8) the accumulator holds, at (b, r), the sum of
  blocks 0 … k of the contraction for output (b, 1024·(n/8) + r) — at k = 0 because the zero block was stored first
  (0 + block 0), at 1 ≤ k ≤ 6 by adding block k to what the step before left, at k = 7 the seven blocks 0 … 6 still
  (the last step only reads it). At k = 7 the output block receives (blocks 0 … 6) + block 7: the whole contraction.
  By induction on the point; no enumeration of the grid.
-/
import proofs.«111642_j22608707846341_2_alg».proof.Proof.KIBlocks

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.MatVec

variable (m : (ℓ : Loc nD τ sig) → Buf (Elt Ideal) ℓ)

/-- How many blocks the accumulator holds after point `n`. -/
def cnt (n : ℕ) : ℕ := if n % 8 = 7 then 7 else n % 8 + 1

theorem cnt_first {n : ℕ} (h : n % 8 = 0) : cnt n = 1 := by
  unfold cnt; rw [if_neg (by omega)]; omega
theorem cnt_middle {n : ℕ} (h0 : ¬n % 8 = 0) (h7 : ¬n % 8 = 7) : cnt (n - 1) = n % 8 ∧ cnt n = n % 8 + 1 := by
  unfold cnt; rw [if_neg h7, if_neg (by omega)]; omega
theorem cnt_last {n : ℕ} (h7 : n % 8 = 7) : cnt (n - 1) = 7 ∧ cnt n = 7 := by
  unfold cnt; rw [if_pos h7, if_neg (by omega)]; omega

/-- The accumulator after point `n`, at a position. -/
def accN (c : Dev nD) (n : ℕ) (y : S32x1024.Idx) : EReal :=
  ∑ j ∈ Finset.range (cnt n), blk (V m c main_v7) (V m c main_arg2) n j y

/-- What the accumulator holds after each point is that sum of blocks. -/
theorem acc_eq (c : Dev nD) (n : ℕ) : ∀ (h : n < cfg0.N) (y : S32x1024.Idx), (outsAt m c n h).2 y = accN m c n y := by
  induction n using Nat.strong_induction_on with
  | _ n ih =>
    intro h y
    by_cases h0 : n % 8 = 0
    · have e : outsAt m c n h = _ := outsAt_first m c ⟨n, h⟩ h0
      rw [e]
      dsimp only
      rw [accFirst_eq, pay3_apply, pay1_apply, zero_add, partial_eq]
      dsimp only
      unfold accN
      rw [cnt_first h0, Finset.sum_range_one, h0]
    · by_cases h7 : n % 8 = 7
      · have e : outsAt m c n h = _ := outsAt_last m c ⟨n, h⟩ h0 h7
        rw [e]
        dsimp only
        rw [ih (n - 1) (by omega) _ y]
        unfold accN
        rw [(cnt_last h7).1, (cnt_last h7).2]
        exact Finset.sum_congr rfl fun j _ => blk_pred _ _ h0 j y
      · have e : outsAt m c n h = _ := outsAt_middle m c ⟨n, h⟩ h0 h7
        rw [e]
        dsimp only
        rw [accMiddle_eq, pay3_apply, partial_eq, ih (n - 1) (by omega) _ y]
        dsimp only
        unfold accN
        rw [(cnt_middle h0 h7).1, (cnt_middle h0 h7).2, Finset.sum_range_succ]
        congr 1
        exact Finset.sum_congr rfl fun j _ => blk_pred _ _ h0 j y

/-- At a last reduction step the output block receives the whole contraction. -/
theorem out_eq (c : Dev nD) (n : ℕ) (h : n < cfg0.N) (h7 : n % 8 = 7) (y : S32x1024.Idx) :
    (outsAt m c n h).1 y = contraction (V m c main_v7) (V m c main_arg2) (batch y) (rowN n y) := by
  have h0 : ¬n % 8 = 0 := by omega
  have e : outsAt m c n h = _ := outsAt_last m c ⟨n, h⟩ h0 h7
  rw [e]
  dsimp only
  rw [outLast_eq, pay4_apply, partial_eq, acc_eq m c (n - 1) _ y]
  dsimp only
  unfold accN
  rw [(cnt_last h7).1, contraction_blocks]
  refine Eq.trans ?_ (Finset.sum_range_succ (fun j => blk (V m c main_v7) (V m c main_arg2) n j y) 7).symm
  rw [h7]
  congr 1
  exact Finset.sum_congr rfl fun j _ => blk_pred _ _ h0 j y

end Cert.KernelIdeal.Body

end
-- ==== Proof.KIFinal.lean ====
/-
  The idealized kernel's result. The region's result array [32, 16384] ends holding, at (b, t), the whole contraction
  Σ_s M[b, s] · A[t, s]: the points with reduction step 7 write their output blocks back, point t writing rows
  1024·(t/8) … of the result's second axis, and these 16 blocks tile it. M is what the host lines before the region
  compute — ((3/2)·E − 1/2), laid out as one row of 16384 and repeated over the 32 batch rows, times the spikes laid
  out as [32, 16384] — and A is the adjacency argument. The host line after the region lays the result out as
  [32, 128, 128]. The run is the frame run with these contents read off its post.
-/
import proofs.«111642_j22608707846341_2_alg».proof.Proof.KIAccum
import Idealize.ShloMosaic.Lib.Pipeline.Value
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.MatVec

variable (m : (ℓ : Loc nD τ sig) → Buf (Elt Ideal) ℓ) (ρ : Dev nD → PrngReg)

/-! ## What the region finds -/

/-- The modulated spikes as the host lines before the region compute them from the spikes `X` and the mask `E`. -/
def modOf (X : (⟨S32x128x128, .f32⟩ : BufTy).Contents (Elt Ideal)) (E : (⟨S128x128, .f32⟩ : BufTy).Contents (Elt Ideal)) :
    (⟨S32x16384, .f32⟩ : BufTy).Contents (Elt Ideal) :=
  mulf (broadcastInDim S32x16384 ![0, 1] bcast_S1x16384_S32x16384_0_1
      (shapeCast _ (subf (mulf (broadcastInDim S128x128 ![] bcast_S_S128x128 (constant (F := Ideal) S_ .f32 0x3FC00000#32)) E)
        (broadcastInDim S128x128 ![] bcast_S_S128x128 (constant (F := Ideal) S_ .f32 0x3F000000#32))) shapeCasts_S128x128_S1x16384))
    (shapeCast _ X shapeCasts_S32x128x128_S32x16384)

theorem V_mod (c : Dev nD) :
    V m c main_v7 = modOf (m ((c : Thread nD τ).loc main_arg0)) (m ((c : Thread nD τ).loc main_arg1)) := by
  show StableHlo.after hostOps0 (fun b => m (c, b)) (Proc.devRef .tc main_v7) = _
  after_results
  rfl

/-! ## The region's result array -/

/-- Output (b, t) of the region: the whole contraction of row b of the modulated spikes with row t of the adjacency. -/
def regionOut (c : Dev nD) : S32x16384.Idx → EReal := fun p =>
  contraction (V m c main_v7) (V m c main_arg2) ⟨(p 0).val, (p 0).isLt⟩ ⟨(p 1).val, (p 1).isLt⟩

/-- At a last reduction step the output block, at (b, r), is the result at (b, 1024·(t/8) + r). -/
theorem out_block_eq (c : Dev nD) (t : Fin cfg0.N) (h7 : t.val % 8 = 7) (y : S32x1024.Idx) (p : S32x16384.Idx)
    (h0 : (p 0).val = (y 0).val) (h1 : (p 1).val = 1024 * (t.val / 8) + (y 1).val) :
    (outsAt m c t.val t.isLt).1 y = regionOut m c p := by
  have hN : t.val < 128 := lt_of_lt_of_eq t.isLt (show cfg0.N = 128 from N_0)
  have hy1 : (y 1).val < 1024 := (y 1).isLt
  rw [out_eq m c t.val t.isLt h7 y]
  unfold regionOut
  congr 1
  · exact Fin.ext h0.symm
  · apply Fin.ext
    show (1024 * (t.val / 8) + (y 1).val) % 16384 = (p 1).val
    rw [h1]; omega

set_option maxRecDepth 200000 in
/-- What point `t` writes back is its block of the result. -/
theorem flushed_eq (c : Dev nD) (t : Fin cfg0.N) (hf : (cfg0.win 2).flush t = true) :
    (dats m 0 c).flushed 2 t = ((cfg0.win 2).blk t).view.read (Elt Ideal) (regionOut m c) := by
  have h7 : t.val % 8 = 7 := (flush0_2 t).mp hf
  show (cfg0.win 2).cut (grid0.coords t) ((dats m 0 c).after 2 t) = _
  rw [after2]
  funext y
  rw [View.read_apply]
  refine out_block_eq m c t h7 ((cfg0.win 2).xinj (grid0.coords t) y) (((cfg0.win 2).blk t).view.emb y) ?_ ?_
  · show win0_2.index t 0 * 32 + 1 * (y 0).val = (y 0).val; rw [(idxO t).1]; omega
  · show win0_2.index t 1 * 1024 + 1 * (y 1).val = 1024 * (t.val / 8) + (y 1).val; rw [(idxO t).2]; omega

/-- An index of the result array is in point `t`'s block iff each coordinate is in the block's range. -/
theorem mem_blkO (t : Fin cfg0.N) (i : S32x16384.Idx) :
    i ∈ ((cfg0.win 2).blk t).view.set ↔ ∀ a : Fin 2, win0_2.index t a * S32x1024.size a ≤ (i a).val ∧ (i a).val < win0_2.index t a * S32x1024.size a + S32x1024.size a := by
  show i ∈ ((View.whole main_v8).slice (win0_2.rect t)).set ↔ _
  rw [View.set_slice_whole, Rect.mem_set_unit]
  exact Iff.rfl

/-- Column t of the result is written back by the point of row block t / 1024 at the last reduction step. -/
theorem covered (i : S32x16384.Idx) : ∃ t : Fin cfg0.N, (cfg0.win 2).flush t = true ∧ i ∈ ((cfg0.win 2).blk t).view.set := by
  have hi0 : (i 0).val < 32 := (i 0).isLt
  have hi1 : (i 1).val < 16384 := (i 1).isLt
  have hN : cfg0.N = 128 := N_0
  have ht : 8 * ((i 1).val / 1024) + 7 < cfg0.N := by omega
  refine ⟨⟨8 * ((i 1).val / 1024) + 7, ht⟩, (flush0_2 _).mpr (by show (8 * ((i 1).val / 1024) + 7) % 8 = 7; omega), ?_⟩
  rw [mem_blkO]
  obtain ⟨e0, e1⟩ := idxO ⟨8 * ((i 1).val / 1024) + 7, ht⟩
  have e1' : win0_2.index ⟨8 * ((i 1).val / 1024) + 7, ht⟩ 1 = (i 1).val / 1024 := by
    rw [e1]; show (8 * ((i 1).val / 1024) + 7) / 8 = _; omega
  intro a
  match a with
  | ⟨0, _⟩ =>
    show win0_2.index ⟨8 * ((i 1).val / 1024) + 7, ht⟩ 0 * 32 ≤ (i 0).val ∧ (i 0).val < win0_2.index ⟨8 * ((i 1).val / 1024) + 7, ht⟩ 0 * 32 + 32
    rw [e0]; omega
  | ⟨1, _⟩ =>
    show win0_2.index ⟨8 * ((i 1).val / 1024) + 7, ht⟩ 1 * 1024 ≤ (i 1).val ∧ (i 1).val < win0_2.index ⟨8 * ((i 1).val / 1024) + 7, ht⟩ 1 * 1024 + 1024
    rw [e1']; omega

/-- The region's result array after the run. -/
theorem final_out (c : Dev nD) : (dats m 0 c).arrAt 2 cfg0.N = regionOut m c :=
  (dats m 0 c).arrAt_eq_of_cover 2 (regionOut m c) (flushed_eq m c) covered

/-! ## The host line after the region, and the run -/

/-- The kernel's result: the region's result laid out as [32, 128, 128]. -/
def result (c : Dev nD) : Buf (Elt Ideal) ((c : Thread nD τ).loc main_v9) :=
  shapeCast _ (regionOut m c) shapeCasts_S32x16384_S32x128x128

theorem tail_eq (c : Dev nD) :
    Pipeline.afterTail₀ cfgs (dats m) 0 (V0 m) [hostOps1] c main_v9 = result m c := by
  unfold Pipeline.afterTail₀
  show StableHlo.after hostOps1 _ (Proc.devRef .tc main_v9) = _
  after_results
  unfold result
  rw [show Pipeline.withArrays (cfgs 0).spec c (V0 m c) (fun w => (dats m 0 c).arrAt w (cfgs 0).N) (Proc.tc.devRef main_v8)
      = regionOut m c from (Pipeline.withArrays_arr spec0 launch0.win.arr_inj c _ _ 2).trans (final_out m c)]

/-- The idealized kernel's run, read: its result laid out from the contraction, the arguments unchanged. -/
theorem run : θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c)))⟩) (run_main m ρ)

end Cert.KernelIdeal.Body

end
-- ==== Proof.KIMod.lean ====
/-
  The modulated spikes the region finds, at a position (b, s) of [32, 16384]: column s is pixel (s / 128, s mod 128),
  the mask's gain there is (3/2)·E[s/128, s mod 128] − 1/2 (the [128, 128] gain laid out as one row of 16384 and
  repeated over the batch rows), and it multiplies the spike X[b, s/128, s mod 128] (the spikes laid out as [32, 16384]).
-/
import proofs.«111642_j22608707846341_2_alg».proof.Proof.KIFinal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pixel of column `s` in the spikes of batch row `b`. -/
abbrev spikeIdx (p : S32x16384.Idx) : S32x128x128.Idx := fun a => match a with
  | ⟨0, _⟩ => ⟨(p 0).val, (p 0).isLt⟩
  | ⟨1, _⟩ => ⟨(p 1).val / 128, by have h1 : (p 1).val < 16384 := (p 1).isLt; show (p 1).val / 128 < 128; omega⟩
  | ⟨2, _⟩ => ⟨(p 1).val % 128, by show (p 1).val % 128 < 128; omega⟩
/-- The pixel of column `s` in the mask. -/
abbrev maskIdx (p : S32x16384.Idx) : S128x128.Idx := fun a => match a with
  | ⟨0, _⟩ => ⟨(p 1).val / 128, by have h1 : (p 1).val < 16384 := (p 1).isLt; show (p 1).val / 128 < 128; omega⟩
  | ⟨1, _⟩ => ⟨(p 1).val % 128, by show (p 1).val % 128 < 128; omega⟩
/-- Row 0 of the one-row layout of the gain, at column `s`. -/
abbrev rowIdx (p : S32x16384.Idx) : S1x16384.Idx := fun a => match a with
  | ⟨0, _⟩ => ⟨0, Nat.one_pos⟩
  | ⟨1, _⟩ => ⟨(p 1).val, (p 1).isLt⟩

theorem modOf_apply (X : (⟨S32x128x128, .f32⟩ : BufTy).Contents (Elt Ideal)) (E : (⟨S128x128, .f32⟩ : BufTy).Contents (Elt Ideal))
    (p : S32x16384.Idx) :
    modOf X E p = (Ideal.ofBits .f32 0x3FC00000#32 * E (maskIdx p) - Ideal.ofBits .f32 0x3F000000#32) * X (spikeIdx p) := by
  have h0 : (p 0).val < 32 := (p 0).isLt
  have h1 : (p 1).val < 16384 := (p 1).isLt
  unfold modOf
  rw [ValueIdx.mulf_apply]
  congr 1
  · rw [broadcastInDim_apply _ bcast_S1x16384_S32x16384_0_1 _ p (rowIdx p) (fun a => match a with
        | ⟨0, _⟩ => by show 0 = if (1 : Nat) = 1 then 0 else (p 0).val; rw [if_pos rfl]
        | ⟨1, _⟩ => by show (p 1).val = if (16384 : Nat) = 1 then 0 else (p 1).val; rw [if_neg (by decide)])]
    rw [shapeCast_apply _ shapeCasts_S128x128_S1x16384 (rowIdx p) (maskIdx p)
      (by rewrite [Shape.rowMajor_val_two, Shape.rowMajor_val_two]; show (p 1).val / 128 * 128 + (p 1).val % 128 = 0 * 16384 + (p 1).val; omega)]
    rw [ValueIdx.subf_apply, ValueIdx.mulf_apply]
    rfl
  · exact shapeCast_apply X shapeCasts_S32x128x128_S32x16384 p (spikeIdx p)
      (by rewrite [Shape.rowMajor_val_three, Shape.rowMajor_val_two]; show ((p 0).val * 128 + (p 1).val / 128) * 128 + (p 1).val % 128 = (p 0).val * 16384 + (p 1).val; omega)

end Cert.KernelIdeal.Body

end
-- ==== Proof.Bridge.lean ====
/-
  The two programs compute one function. The reference's result is the [32, 128, 128] layout of its `dot_general`, which
  at (b, t) is Σ_s M'[b, s] · A[t, s] with M' the reference's modulated spikes: at (b, s), (E[q] − (1/2)·(1 − E[q])) · X[b, q]
  for the pixel q = (s / 128, s mod 128). The kernel's M is ((3/2)·E[q] − 1/2) · X[b, q] at the same pixel. On a real mask
  entry the two gains agree (distributivity among reals), so M' = M entry by entry, the contractions agree term by term,
  and the kernel's 8 accumulated blocks are the reference's one sum re-grouped.
-/
import proofs.«111642_j22608707846341_2_alg».proof.Proof.KIMod
import proofs.«111642_j22608707846341_2_alg».proof.Proof.Gen.ReferenceIdeal.Read

noncomputable section

namespace Cert.Bridge

open Idealize.ShloMosaic Idealize.ShloMosaic.TcCoe Idealize.SL.Sem
open Cert.KernelIdeal Cert.KernelIdeal.Gen Cert.KernelIdeal.Body Cert.MatVec

/-- The reference's modulated spikes at a position. -/
theorem ref_mod_apply (X : (⟨S32x128x128, .f32⟩ : BufTy).Contents (Elt Ideal)) (E : (⟨S128x128, .f32⟩ : BufTy).Contents (Elt Ideal))
    (p : S32x16384.Idx) :
    Cert.ReferenceIdeal.Read.val_main_v8 (F := Ideal) X E p
      = (E (Cert.ReferenceIdeal.Read.idx_main_v5 (Cert.ReferenceIdeal.Read.idx_main_v6 (Cert.ReferenceIdeal.Read.idx_main_v8 p)))
          - Ideal.ofBits .f32 0x3F000000#32 * (Ideal.ofBits .f32 0x3F800000#32 - E (Cert.ReferenceIdeal.Read.idx_main_v5 (Cert.ReferenceIdeal.Read.idx_main_v6 (Cert.ReferenceIdeal.Read.idx_main_v8 p)))))
        * X (Cert.ReferenceIdeal.Read.idx_main_v8 p) := by
  rw [Cert.ReferenceIdeal.Read.val_main_v8_apply, Cert.ReferenceIdeal.Read.val_main_v7_apply, Cert.ReferenceIdeal.Read.val_main_v6_apply, Cert.ReferenceIdeal.Read.val_main_v5_apply,
    Cert.ReferenceIdeal.Read.val_main_v4_apply, Cert.ReferenceIdeal.Read.val_main_v3_apply, Cert.ReferenceIdeal.Read.val_main_v2_apply, Cert.ReferenceIdeal.Read.val_main_cst_0_apply,
    Cert.ReferenceIdeal.Read.val_main_v1_apply, Cert.ReferenceIdeal.Read.val_main_v0_apply, Cert.ReferenceIdeal.Read.val_main_cst_apply]
  rfl

/-- The reference reads the spikes at the same pixel as the kernel, -/
theorem idx_spike (p : S32x16384.Idx) : Cert.ReferenceIdeal.Read.idx_main_v8 p = spikeIdx p := funext fun a => Fin.ext (by
  have h0 : (p 0).val < 32 := (p 0).isLt
  have h1 : (p 1).val < 16384 := (p 1).isLt
  match a with
  | ⟨0, _⟩ => show ((p 0).val * 16384 + (p 1).val) / 16384 = (p 0).val; omega
  | ⟨1, _⟩ => show ((p 0).val * 16384 + (p 1).val) / 128 % 128 = (p 1).val / 128; omega
  | ⟨2, _⟩ => show ((p 0).val * 16384 + (p 1).val) % 128 = (p 1).val % 128; omega)
/-- and the mask at the same pixel. -/
theorem idx_mask (p : S32x16384.Idx) : Cert.ReferenceIdeal.Read.idx_main_v5 (Cert.ReferenceIdeal.Read.idx_main_v6 (Cert.ReferenceIdeal.Read.idx_main_v8 p)) = maskIdx p := funext fun a => Fin.ext (by
  have h0 : (p 0).val < 32 := (p 0).isLt
  have h1 : (p 1).val < 16384 := (p 1).isLt
  match a with
  | ⟨0, _⟩ => show ((p 0).val * 16384 + (p 1).val) / 128 % 128 = (p 1).val / 128; omega
  | ⟨1, _⟩ => show ((p 0).val * 16384 + (p 1).val) % 128 = (p 1).val % 128; omega)

/-- On a real mask the two programs' modulated spikes are one array. -/
theorem mod_eq (X : (⟨S32x128x128, .f32⟩ : BufTy).Contents (Elt Ideal)) (E : (⟨S128x128, .f32⟩ : BufTy).Contents (Elt Ideal))
    (hE : ∀ q : S128x128.Idx, ∃ e : ℝ, E q = (e : EReal)) :
    Cert.ReferenceIdeal.Read.val_main_v8 (F := Ideal) X E = modOf X E := by
  funext p
  rw [ref_mod_apply, modOf_apply, idx_mask, idx_spike]
  obtain ⟨e, he⟩ := hE (maskIdx p)
  rw [he, gain_eq]

/-- The reference's `dot_general` is the contraction. -/
theorem ref_v9_eq (X : (⟨S32x128x128, .f32⟩ : BufTy).Contents (Elt Ideal)) (E : (⟨S128x128, .f32⟩ : BufTy).Contents (Elt Ideal))
    (A : (⟨S16384x16384, .f32⟩ : BufTy).Contents (Elt Ideal)) :
    Cert.ReferenceIdeal.Read.val_main_v9 (F := Ideal) X E A
      = fun p : S32x16384.Idx => contraction (Cert.ReferenceIdeal.Read.val_main_v8 (F := Ideal) X E) A ⟨(p 0).val, (p 0).isLt⟩ ⟨(p 1).val, (p 1).isLt⟩ := by
  funext p
  rw [Cert.ReferenceIdeal.Read.val_main_v9_apply, contraction_fin]
  refine Finset.sum_congr rfl fun k _ => ?_
  have el : Cert.ReferenceIdeal.Read.lidx_main_v9 p k = ValueIdx.ix2 (⟨(p 0).val, (p 0).isLt⟩ : Fin 32) k := funext fun a => Fin.ext (by
    match a with
    | ⟨0, _⟩ => rfl
    | ⟨1, _⟩ => rfl)
  have er : Cert.ReferenceIdeal.Read.ridx_main_v9 p k = ValueIdx.ix2 (⟨(p 1).val, (p 1).isLt⟩ : Fin 16384) k := funext fun a => Fin.ext (by
    match a with
    | ⟨0, _⟩ => rfl
    | ⟨1, _⟩ => rfl)
  rw [el, er]

/-- The kernel's result, over its argument arrays. -/
theorem kernel_result (m : (ℓ : Loc nD τ sig) → Buf (Elt Ideal) ℓ) (c : Dev nD) :
    result m c = shapeCast _ (fun p : S32x16384.Idx =>
        contraction (modOf (m ((c : Thread nD τ).loc main_arg0)) (m ((c : Thread nD τ).loc main_arg1))) (m ((c : Thread nD τ).loc main_arg2))
          ⟨(p 0).val, (p 0).isLt⟩ ⟨(p 1).val, (p 1).isLt⟩) shapeCasts_S32x16384_S32x128x128 := by
  unfold result regionOut
  rw [V_mod, V_main_arg2]
  rfl

/-- The reference's result of the same arrays is the kernel's, when the mask is real. -/
theorem reference_result (X : (⟨S32x128x128, .f32⟩ : BufTy).Contents (Elt Ideal)) (E : (⟨S128x128, .f32⟩ : BufTy).Contents (Elt Ideal))
    (A : (⟨S16384x16384, .f32⟩ : BufTy).Contents (Elt Ideal)) (hE : ∀ q : S128x128.Idx, ∃ e : ℝ, E q = (e : EReal)) :
    Cert.ReferenceIdeal.Read.val_main_v10 (F := Ideal) X E A
      = shapeCast _ (fun p : S32x16384.Idx => contraction (modOf X E) A ⟨(p 0).val, (p 0).isLt⟩ ⟨(p 1).val, (p 1).isLt⟩)
          shapeCasts_S32x16384_S32x128x128 := by
  unfold Cert.ReferenceIdeal.Read.val_main_v10
  rw [ref_v9_eq, mod_eq X E hE]

end Cert.Bridge

end
-- ==== Proof.FiniteMask.lean ====
/-
  What the precondition says of the mask: it states that |x| < +inf at every entry of every input, as one conjunction of
  three "all entries" reductions. From it, every entry of the mask E is a real number (an extended real whose absolute
  value max x (−x) is below +inf is neither infinity).
-/
import proofs.«111642_j22608707846341_2_alg».proof.Pre_finite_inputs
import proofs.«111642_j22608707846341_2_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Decode

open Idealize.ShloMosaic Cert.Pre_finite_inputs

instance : Subsingleton S_.Idx := ⟨fun a b => funext fun d => d.elim0⟩

/-- The float word of +inf denotes the top extended real. -/
theorem top_bits : Ideal.ofBits .f32 0x7F800000#32 = ⊤ := by
  simp [Ideal.ofBits, Ideal.ieee]

/-- An extended real whose absolute value compares below +inf is a real. -/
theorem real_of_abs_lt_top (x : EReal) (h : Ideal.cmp .olt (max x (-x)) ⊤ = 1#1) : ∃ e : ℝ, x = (e : EReal) := by
  induction x using EReal.rec with
  | bot => simp [Ideal.cmp] at h
  | coe e => exact ⟨e, rfl⟩
  | top => simp [Ideal.cmp] at h

/-- Under the precondition every entry of the second input (the mask) is a real. -/
theorem mask_real [Facts] (x0 : FVec Ideal S32x128x128 .f32) (x1 : FVec Ideal S128x128 .f32) (x2 : FVec Ideal S16384x16384 .f32)
    (h : fn (F := Ideal) x0 x1 x2 = fun _ => 1#1) (q : S128x128.Idx) : ∃ e : ℝ, x1 q = (e : EReal) := by
  have h1 := congrFun h ValueIdx.ix0
  dsimp only [fn] at h1
  obtain ⟨h8, -⟩ := IntOp.andi_eq_one.mp h1
  obtain ⟨-, h7⟩ := IntOp.andi_eq_one.mp h8
  have hq := Host.reduce_andi_all _ _ _ _ _ h7 q
  apply real_of_abs_lt_top
  rw [← top_bits]
  exact hq

end Cert.Pre_finite_inputs.Decode

end
-- ==== Proof.lean ====
/-
  A batched matrix-vector product with a mask-modulated input:
      out[b, t] = Σ_s  g(E[s]) · X[b, s] · A[t, s],      b < 32,  s, t < 16384 (pixels of a 128 × 128 grid),
  where E is a 0/1 mask stored as floats, X the spikes, A the adjacency, and g the gain of a pixel:
  the reference writes g(e) = e − (1/2)·(1 − e), the kernel (3/2)·e − 1/2.

  The kernel computes M = g(E) · X once on the host, then runs a 16 × 8 grid: row block i of 1024 outputs, reduction
  step k of 2048 columns. An accumulator kept between grid points is zeroed at k = 0, receives the step's partial product
  Σ_{s in block k} M[b, s] · A[t, s] at k = 0 … 6, and at k = 7 the accumulator plus the last partial product is stored
  into the output block, which is then written back. The reference is one contraction over all 16384 columns.

  Frames (both kernel programs, at any float instance): the body is run once per case of k (first / middle / last) and
  the region's invariant carries the accumulator's contents from point to point; the output window is idle where k ≠ 7.
  Values (over the extended reals): by induction on the grid point the accumulator after step k holds blocks 0 … k of
  the contraction, so the written-back blocks hold the whole contraction — the 8 blocks re-grouped into one sum, which
  needs only commutativity and associativity of +. The two gains agree on a REAL mask entry (distributivity among real
  numbers); this is where the precondition — every input finite — is used, for the mask alone.
  The format changes to bf16 in the body are the identity over the extended reals; nothing was rewritten by the
  idealization, so `preserves` is trivial.
-/
import proofs.«111642_j22608707846341_2_alg».proof.Defs
import proofs.«111642_j22608707846341_2_alg».proof.Proof.KBFrame
import proofs.«111642_j22608707846341_2_alg».proof.Proof.Bridge
import proofs.«111642_j22608707846341_2_alg».proof.Proof.FiniteMask
import proofs.«111642_j22608707846341_2_alg».proof.Proof.Gen.Kernel
import proofs.«111642_j22608707846341_2_alg».proof.Proof.Gen.KernelIdeal
import proofs.«111642_j22608707846341_2_alg».proof.Proof.Gen.ReferenceIdeal
import proofs.«111642_j22608707846341_2_alg».proof.Proof.Gen.ReferenceIdeal.Read
import proofs.«111642_j22608707846341_2_alg».proof.Proof.Gen.Pre_finite_inputs
import Idealize.ShloMosaic.Adequacy
import Idealize.ShloMosaic.Init

noncomputable section

namespace Cert.Proof

open Idealize.ShloMosaic Idealize.SL.Sem

/-- The kernel as printed runs to the end, faults nowhere and leaves its arguments unchanged. -/
theorem frame_kernel : Cert.frame_Kernel := fun m ρ _ => Cert.Kernel.Body.frame m ρ
/-- So does its reading over the extended reals. -/
theorem frame_kernelIdeal : Cert.frame_KernelIdeal := fun m ρ _ => Cert.KernelIdeal.Body.frame m ρ
/-- The reference is straight-line host code: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the contraction of the modulated spikes with the
    adjacency, laid out as [32, 128, 128]: the kernel's by its accumulated blocks, the reference's by its one sum, the two
    modulated-spikes arrays one array because the mask is real. -/
theorem algebraic : Cert.algebraic_KernelIdeal_ReferenceIdeal := by
  intro m ρ m' ρ' hpre hagree
  refine ⟨fun c => Cert.KernelIdeal.Body.result m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.Bridge.reference_result _ _ _ (Cert.Pre_finite_inputs.Decode.mask_real _ _ _ (hpre c))).trans
    (Cert.Bridge.kernel_result m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
